-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v73)) (v1 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_v74) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S256x32 : Shape := ⟨2, ![256, 32]⟩
abbrev S1000x32 : Shape := ⟨2, ![1000, 32]⟩
abbrev S800000 : Shape := ⟨1, ![800000]⟩
abbrev S200000 : Shape := ⟨1, ![200000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x32 : S_.BroadcastsInDim S256x32 (![] : Fin 0 → Fin S256x32.rank)
  reducesTo_S256x32_S_d0_1 : S256x32.ReducesTo [0, 1] S_
  bcast_S_S1000x32 : S_.BroadcastsInDim S1000x32 (![] : Fin 0 → Fin S1000x32.rank)
  reducesTo_S1000x32_S_d0_1 : S1000x32.ReducesTo [0, 1] S_

variable [Facts]

def fn_part1 {F : FTy → Type} [FloatOps F] (main_arg4 : FVec F S128 .f32) (main_arg5 : FVec F S256x32 .f32) (main_arg6 : FVec F S1000x32 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x32 .f32 := Host.absf main_arg5
  let main_cst_8 : FVec F S_ .f32 := constant S_ .f32 0x7F800000#32
  let main_v25 : FVec F S256x32 .f32 := broadcastInDim S256x32 ![] bcast_S_S256x32 main_cst_8
  let main_v26 : IVec S256x32 1 := cmpf .olt main_v24 main_v25
  let main_c_9 : IVec S_ 1 := constantI S_ 1 1#1
  let main_v27 : IVec S_ 1 := (fun x v => Host.reduce IntOp.andi x v reducesTo_S256x32_S_d0_1 h_S_) main_v26 main_c_9
  let main_v28 : IVec S_ 1 := andi main_v23 main_v27
  let main_v29 : FVec F S1000x32 .f32 := Host.absf main_arg6
  let main_cst_10 : FVec F S_ .f32 := constant S_ .f32 0x7F800000#32
  let main_v30 : FVec F S1000x32 .f32 := broadcastInDim S1000x32 ![] bcast_S_S1000x32 main_cst_10
  let main_v31 : IVec S1000x32 1 := cmpf .olt main_v29 main_v30
  let main_c_11 : IVec S_ 1 := constantI S_ 1 1#1
  let main_v32 : IVec S_ 1 := (fun x v => Host.reduce IntOp.andi x v reducesTo_S1000x32_S_d0_1 h_S_) main_v31 main_c_11
  let main_v33 : IVec S_ 1 := andi main_v28 main_v32
  main_v33

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : FVec F S256x32 .f32) (main_arg6 : FVec F S1000x32 .f32) (main_arg7 : IVec S800000 32) (main_arg8 : IVec S800000 32) (main_arg9 : IVec S200000 32) (main_arg10 : IVec S200000 32) (main_arg11 : IVec S200000 32) (main_arg12 : IVec S200000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S50000x128 : Shape := ⟨2, ![50000, 128]⟩
abbrev S128x128 : Shape := ⟨2, ![128, 128]⟩
abbrev S128 : Shape := ⟨1, ![128]⟩
abbrev S256x32 : Shape := ⟨2, ![256, 32]⟩
abbrev S1000x32 : Shape := ⟨2, ![1000, 32]⟩
abbrev S800000 : Shape := ⟨1, ![800000]⟩
abbrev S200000 : Shape := ⟨1, ![200000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S5000x128 : Shape := ⟨2, ![5000, 128]⟩
abbrev S5000x1 : Shape := ⟨2, ![5000, 1]⟩
abbrev S1x128 : Shape := ⟨2, ![1, 128]⟩
abbrev S128x32 : Shape := ⟨2, ![128, 32]⟩
abbrev S50000x32 : Shape := ⟨2, ![50000, 32]⟩
abbrev S5000x32 : Shape := ⟨2, ![5000, 32]⟩
abbrev S5000 : Shape := ⟨1, ![5000]⟩
abbrev S200000x1 : Shape := ⟨2, ![200000, 1]⟩
abbrev S200000x32 : Shape := ⟨2, ![200000, 32]⟩
abbrev S4000x32 : Shape := ⟨2, ![4000, 32]⟩
abbrev S4000x1 : Shape := ⟨2, ![4000, 1]⟩
abbrev S4000 : Shape := ⟨1, ![4000]⟩

abbrev nBuf : Space → Nat
  | .hbm => 108
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S256x32, .f32⟩
  | .hbm, ⟨6, _⟩ => ⟨S1000x32, .f32⟩
  | .hbm, ⟨7, _⟩ => ⟨S800000, .i32⟩
  | .hbm, ⟨8, _⟩ => ⟨S800000, .i32⟩
  | .hbm, ⟨9, _⟩ => ⟨S200000, .i32⟩
  | .hbm, ⟨10, _⟩ => ⟨S200000, .i32⟩
  | .hbm, ⟨11, _⟩ => ⟨S200000, .i32⟩
  | .hbm, ⟨12, _⟩ => ⟨S200000, .i32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000, .f32⟩
  | .hbm, ⟨32, _⟩ => ⟨S50000x1, .f32⟩
  | .hbm, ⟨33, _⟩ => ⟨S50000x128, .f32⟩
  | .hbm, ⟨34, _⟩ => ⟨S50000x128, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S50000x128, .f32⟩
  | .hbm, ⟨65, _⟩ => ⟨S128x32, .f32⟩
  | .hbm, ⟨66, _⟩ => ⟨S128x32, .f32⟩
  | .hbm, ⟨67, _⟩ => ⟨S50000x32, .f32⟩
  | .hbm, ⟨68, _⟩ => ⟨S_, .i32⟩
  | .hbm, ⟨69, _⟩ => ⟨S200000, .i32⟩
  | .hbm, ⟨70, _⟩ => ⟨S200000, .i1⟩
  | .hbm, ⟨71, _⟩ => ⟨S_, .i32⟩
  | .hbm, ⟨72, _⟩ => ⟨S200000, .i32⟩
  | .hbm, ⟨73, _⟩ => ⟨S200000, .i32⟩
  | .hbm, ⟨74, _⟩ => ⟨S200000, .i32⟩
  | .hbm, ⟨75, _⟩ => ⟨S200000x1, .i32⟩
  | .hbm, ⟨76, _⟩ => ⟨S200000x32, .f32⟩
  | .hbm, ⟨77, _⟩ => ⟨S_, .i32⟩
  | .hbm, ⟨78, _⟩ => ⟨S200000, .i32⟩
  | .hbm, ⟨79, _⟩ => ⟨S200000, .i1⟩
  | .hbm, ⟨80, _⟩ => ⟨S_, .i32⟩
  | .hbm, ⟨81, _⟩ => ⟨S200000, .i32⟩
  | .hbm, ⟨82, _⟩ => ⟨S200000, .i32⟩
  | .hbm, ⟨83, _⟩ => ⟨S200000, .i32⟩
  | .hbm, ⟨84, _⟩ => ⟨S200000x1, .i32⟩
  | .hbm, ⟨85, _⟩ => ⟨S200000x32, .f32⟩
  | .hbm, ⟨86, _⟩ => ⟨S_, .i32⟩
  | .hbm, ⟨87, _⟩ => ⟨S200000, .i32⟩
  | .hbm, ⟨88, _⟩ => ⟨S200000, .i1⟩
  | .hbm, ⟨89, _⟩ => ⟨S_, .i32⟩
  | .hbm, ⟨90, _⟩ => ⟨S200000, .i32⟩
  | .hbm, ⟨91, _⟩ => ⟨S200000, .i32⟩
  | .hbm, ⟨92, _⟩ => ⟨S200000, .i32⟩
  | .hbm, ⟨93, _⟩ => ⟨S200000x1, .i32⟩
  | .hbm, ⟨94, _⟩ => ⟨S200000x32, .f32⟩
  | .hbm, ⟨95, _⟩ => ⟨S_, .i32⟩
  | .hbm, ⟨96, _⟩ => ⟨S200000, .i32⟩
  | .hbm, ⟨97, _⟩ => ⟨S200000, .i1⟩
  | .hbm, ⟨98, _⟩ => ⟨S_, .i32⟩
  | .hbm, ⟨99, _⟩ => ⟨S200000, .i32⟩
  | .hbm, ⟨100, _⟩ => ⟨S200000, .i32⟩
  | .hbm, ⟨101, _⟩ => ⟨S200000, .i32⟩
  | .hbm, ⟨102, _⟩ => ⟨S200000x1, .i32⟩
  | .hbm, ⟨103, _⟩ => ⟨S200000x32, .f32⟩
  | .hbm, ⟨104, _⟩ => ⟨S200000x1, .f32⟩
  | .hbm, ⟨105, _⟩ => ⟨S200000x1, .f32⟩
  | .hbm, ⟨106, _⟩ => ⟨S200000, .f32⟩
  | .hbm, ⟨107, _⟩ => ⟨S200000, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x32, .f32⟩
  | .local _ .vmem, ⟨21, _⟩ => ⟨S128x32, .f32⟩
  | .local _ .vmem, ⟨22, _⟩ => ⟨S5000x32, .f32⟩
  | .local _ .vmem, ⟨23, _⟩ => ⟨S5000x32, .f32⟩
  | .local _ .vmem, ⟨24, _⟩ => ⟨S4000x32, .f32⟩
  | .local _ .vmem, ⟨25, _⟩ => ⟨S4000x32, .f32⟩
  | .local _ .vmem, ⟨26, _⟩ => ⟨S4000x32, .f32⟩
  | .local _ .vmem, ⟨27, _⟩ => ⟨S4000x32, .f32⟩
  | .local _ .vmem, ⟨28, _⟩ => ⟨S4000x32, .f32⟩
  | .local _ .vmem, ⟨29, _⟩ => ⟨S4000x32, .f32⟩
  | .local _ .vmem, ⟨30, _⟩ => ⟨S4000x32, .f32⟩
  | .local _ .vmem, ⟨31, _⟩ => ⟨S4000x32, .f32⟩
  | .local _ .vmem, ⟨32, _⟩ => ⟨S4000x1, .f32⟩
  | .local _ .vmem, ⟨33, _⟩ => ⟨S4000x1, .f32⟩
  | .local _ .vmem, ⟨34, _⟩ => ⟨S4000x1, .f32⟩
  | .local _ .vmem, ⟨35, _⟩ => ⟨S4000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_c_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_9 : Ref sig .tc := ⟨.hbm, 68, rfl⟩
abbrev main_v44 : Ref sig .tc := ⟨.hbm, 69, rfl⟩
abbrev main_v45 : Ref sig .tc := ⟨.hbm, 70, rfl⟩
abbrev main_c_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c_11 : Ref sig .tc := ⟨.hbm, 77, rfl⟩
abbrev main_v51 : Ref sig .tc := ⟨.hbm, 78, rfl⟩
abbrev main_v52 : Ref sig .tc := ⟨.hbm, 79, rfl⟩
abbrev main_c_12 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_13 : Ref sig .tc := ⟨.hbm, 86, rfl⟩
abbrev main_v58 : Ref sig .tc := ⟨.hbm, 87, rfl⟩
abbrev main_v59 : Ref sig .tc := ⟨.hbm, 88, rfl⟩
abbrev main_c_14 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_15 : Ref sig .tc := ⟨.hbm, 95, rfl⟩
abbrev main_v65 : Ref sig .tc := ⟨.hbm, 96, rfl⟩
abbrev main_v66 : Ref sig .tc := ⟨.hbm, 97, rfl⟩
abbrev main_c_16 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72_0 : Ref sig .tc := ⟨.hbm, 104, rfl⟩
abbrev main_v72_1 : Ref sig .tc := ⟨.hbm, 105, rfl⟩
abbrev main_v73 : Ref sig .tc := ⟨.hbm, 106, rfl⟩
abbrev main_v74 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg4_1 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem4_1 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S4000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  slices_S256x32_S128x32_0_0 : S256x32.Slices ![0, 0] S128x32
  slices_S256x32_S128x32_128_0 : S256x32.Slices ![128, 0] S128x32
  inb_S128x32_S128x32_0_0 : ∀ a, (![0, 0] : Fin 2 → Nat) a + S128x32.size a ≤ S128x32.size a
  h_S128x32 : 0 < S128x32.numel
  shapeCasts_S128x32_S128x32 : S128x32.ShapeCasts S128x32
  reduces_S5000x32_S5000 : S5000x32.Reduces [1] S5000
  shapeCasts_S5000_S5000x1 : S5000.ShapeCasts S5000x1
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  bcast_S_S200000 : S_.BroadcastsInDim S200000 (![] : Fin 0 → Fin S200000.rank)
  bcast_S200000_S200000x1_0 : S200000.BroadcastsInDim S200000x1 (![0] : Fin 1 → Fin S200000x1.rank)
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  reduces_S4000x32_S4000 : S4000x32.Reduces [1] S4000
  shapeCasts_S4000_S4000x1 : S4000.ShapeCasts S4000x1
  broadcasts_S4000x1_S4000x32 : S4000x1.Broadcasts S4000x32
  inb_S4000x1_S4000x1_0_0 : ∀ a, (![0, 0] : Fin 2 → Nat) a + S4000x1.size a ≤ S4000x1.size a
  h_S4000x1 : 0 < S4000x1.numel
  shapeCasts_S200000x1_S200000 : S200000x1.ShapeCasts S200000
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x32_S5000x32_1_0_0_1_n_n_wf : DotDims.WF S5000x128 S128x32 S5000x32 [1] [0] [0] [1] [] []
  gather_S50000x32_S200000x1_S200000x32_1_0_n_n_0_1_132_wf : GatherDims.WF S50000x32 S200000x1 S200000x32 [1] [0] [] [0] [] 1 ![1, 32]
  gather_S1000x32_S200000x1_S200000x32_1_0_n_n_0_1_132_wf : GatherDims.WF S1000x32 S200000x1 S200000x32 [1] [0] [] [0] [] 1 ![1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x32.size a ≤ S128x32.size a
  hwx2_2 : ∀ i : grid2.Coords, EltTy.bits .f32 = 32 ∨ (Rect.block (s := S128x32) S128x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x32.size a ≤ S128x32.size a
  hwx2_3 : ∀ i : grid2.Coords, EltTy.bits .f32 = 32 ∨ (Rect.block (s := S128x32) S128x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x32.size a ≤ S50000x32.size a
  hwx2_4 : ∀ i : grid2.Coords, EltTy.bits .f32 = 32 ∨ (Rect.block (s := S50000x32) S5000x32.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x32.size a ≤ S200000x32.size a
  hwx3_0 : ∀ i : grid3.Coords, EltTy.bits .f32 = 32 ∨ (Rect.block (s := S200000x32) S4000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x32.size a ≤ S200000x32.size a
  hwx3_1 : ∀ i : grid3.Coords, EltTy.bits .f32 = 32 ∨ (Rect.block (s := S200000x32) S4000x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x32.size a ≤ S200000x32.size a
  hwx3_2 : ∀ i : grid3.Coords, EltTy.bits .f32 = 32 ∨ (Rect.block (s := S200000x32) S4000x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x32.size a ≤ S200000x32.size a
  hwx3_3 : ∀ i : grid3.Coords, EltTy.bits .f32 = 32 ∨ (Rect.block (s := S200000x32) S4000x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x1.size a ≤ S200000x1.size a
  hwx3_4 : ∀ i : grid3.Coords, EltTy.bits .f32 = 32 ∨ (Rect.block (s := S200000x1) S4000x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x1.size a ≤ S200000x1.size a
  hwx3_5 : ∀ i : grid3.Coords, EltTy.bits .f32 = 32 ∨ (Rect.block (s := S200000x1) S4000x1.size (cc3_transform_5 i) (hinb3_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S50000x32_S200000x1_S200000x32_1_0_n_n_0_1_132 : GatherDims S50000x32 S200000x1 S200000x32 where
  offsetDims := [1]
  collapsedSliceDims := [0]
  operandBatchingDims := []
  startIndicesBatchingDims := []
  startIndexMap := [0]
  indexVectorDim := 1
  sliceSizes := ![1, 32]
  wf := gather_S50000x32_S200000x1_S200000x32_1_0_n_n_0_1_132_wf
def gather_S1000x32_S200000x1_S200000x32_1_0_n_n_0_1_132 : GatherDims S1000x32 S200000x1 S200000x32 where
  offsetDims := [1]
  collapsedSliceDims := [0]
  operandBatchingDims := []
  startIndicesBatchingDims := []
  startIndexMap := [0]
  indexVectorDim := 1
  sliceSizes := ![1, 32]
  wf := gather_S1000x32_S200000x1_S200000x32_1_0_n_n_0_1_132_wf

abbrev win0_0 : Pipeline.Window sig grid0 :=
  Pipeline.Window.ofSpec (Memref.whole main_v26) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S128x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S128x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S5000x32.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v50) S4000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v71) S4000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S4000x32.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v64) S4000x32.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v72_0) S4000x1.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v72_1) S4000x1.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S256x32 : Shape := ⟨2, ![256, 32]⟩
abbrev S1000x32 : Shape := ⟨2, ![1000, 32]⟩
abbrev S800000 : Shape := ⟨1, ![800000]⟩
abbrev S200000 : Shape := ⟨1, ![200000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x256 : Shape := ⟨2, ![50000, 256]⟩
abbrev S50000x32 : Shape := ⟨2, ![50000, 32]⟩
abbrev S200000x1 : Shape := ⟨2, ![200000, 1]⟩
abbrev S200000x32 : Shape := ⟨2, ![200000, 32]⟩

abbrev nBuf : Space → Nat
  | .hbm => 166
  | .vmem => 0
  | .smem => 0
  | _ => 0

abbrev hbmTy0_0 (i : Nat) : BufTy := match i % 128 with
  | 0 => ⟨S50000x128, .f32⟩
  | 1 => ⟨S128x128, .f32⟩
  | 2 => ⟨S128, .f32⟩
  | 3 => ⟨S128x128, .f32⟩
  | 4 => ⟨S128, .f32⟩
  | 5 => ⟨S256x32, .f32⟩
  | 6 => ⟨S1000x32, .f32⟩
  | 7 => ⟨S800000, .i32⟩
  | 8 => ⟨S800000, .i32⟩
  | 9 => ⟨S200000, .i32⟩
  | 10 => ⟨S200000, .i32⟩
  | 11 => ⟨S200000, .i32⟩
  | 12 => ⟨S200000, .i32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S_, .f32⟩
  | 23 => ⟨S50000, .f32⟩
  | 24 => ⟨S800000x1, .i32⟩
  | 25 => ⟨S50000, .f32⟩
  | 26 => ⟨S_, .f32⟩
  | 27 => ⟨S50000, .f32⟩
  | 28 => ⟨S50000, .f32⟩
  | 29 => ⟨S50000, .f32⟩
  | 30 => ⟨S50000x1, .f32⟩
  | 31 => ⟨S50000x128, .f32⟩
  | 32 => ⟨S50000x128, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x128, .f32⟩
  | 42 => ⟨S_, .f32⟩
  | 43 => ⟨S50000x128, .f32⟩
  | 44 => ⟨S800000x1, .i32⟩
  | 45 => ⟨S50000x128, .f32⟩
  | 46 => ⟨S50000, .f32⟩
  | 47 => ⟨S50000x1, .f32⟩
  | 48 => ⟨S50000x128, .f32⟩
  | 49 => ⟨S50000x128, .f32⟩
  | 50 => ⟨S50000x128, .f32⟩
  | 51 => ⟨S1x128, .f32⟩
  | 52 => ⟨S50000x128, .f32⟩
  | 53 => ⟨S50000x128, .f32⟩
  | 54 => ⟨S50000x128, .f32⟩
  | 55 => ⟨S_, .f32⟩
  | 56 => ⟨S800000, .f32⟩
  | 57 => ⟨S_, .f32⟩
  | 58 => ⟨S50000, .f32⟩
  | 59 => ⟨S800000x1, .i32⟩
  | 60 => ⟨S50000, .f32⟩
  | 61 => ⟨S_, .f32⟩
  | 62 => ⟨S50000, .f32⟩
  | 63 => ⟨S50000, .f32⟩
  | 64 => ⟨S_, .f32⟩
  | 65 => ⟨S50000, .f32⟩
  | 66 => ⟨S800000x1, .i32⟩
  | 67 => ⟨S50000, .f32⟩
  | 68 => ⟨S_, .f32⟩
  | 69 => ⟨S50000, .f32⟩
  | 70 => ⟨S50000, .f32⟩
  | 71 => ⟨S50000, .f32⟩
  | 72 => ⟨S50000x1, .f32⟩
  | 73 => ⟨S50000x128, .f32⟩
  | 74 => ⟨S50000x128, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x128, .f32⟩
  | 84 => ⟨S_, .f32⟩
  | 85 => ⟨S50000x128, .f32⟩
  | 86 => ⟨S800000x1, .i32⟩
  | 87 => ⟨S50000x128, .f32⟩
  | 88 => ⟨S50000, .f32⟩
  | 89 => ⟨S50000x1, .f32⟩
  | 90 => ⟨S50000x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S50000x128, .f32⟩
  | 97 => ⟨S50000x256, .f32⟩
  | 98 => ⟨S50000x32, .f32⟩
  | 99 => ⟨S50000x32, .f32⟩
  | 100 => ⟨S_, .f32⟩
  | 101 => ⟨S50000, .f32⟩
  | 102 => ⟨S50000x1, .f32⟩
  | 103 => ⟨S50000x1, .f32⟩
  | 104 => ⟨S_, .f32⟩
  | 105 => ⟨S50000x1, .f32⟩
  | 106 => ⟨S50000x1, .f32⟩
  | 107 => ⟨S50000x32, .f32⟩
  | 108 => ⟨S50000x32, .f32⟩
  | 109 => ⟨S_, .i32⟩
  | 110 => ⟨S200000, .i32⟩
  | 111 => ⟨S200000, .i1⟩
  | 112 => ⟨S_, .i32⟩
  | 113 => ⟨S200000, .i32⟩
  | 114 => ⟨S200000, .i32⟩
  | 115 => ⟨S200000, .i32⟩
  | 116 => ⟨S200000x1, .i32⟩
  | 117 => ⟨S200000x32, .f32⟩
  | 118 => ⟨S200000x32, .f32⟩
  | 119 => ⟨S_, .f32⟩
  | 120 => ⟨S200000, .f32⟩
  | 121 => ⟨S200000x1, .f32⟩
  | 122 => ⟨S200000x1, .f32⟩
  | 123 => ⟨S_, .f32⟩
  | 124 => ⟨S200000x1, .f32⟩
  | 125 => ⟨S200000x1, .f32⟩
  | 126 => ⟨S200000x32, .f32⟩
  | 127 => ⟨S200000x32, .f32⟩
  | _ => ⟨S50000x128, .f32⟩

abbrev hbmTy0_1 (i : Nat) : BufTy := match i % 128 with
  | 0 => ⟨S_, .i32⟩
  | 1 => ⟨S200000, .i32⟩
  | 2 => ⟨S200000, .i1⟩
  | 3 => ⟨S_, .i32⟩
  | 4 => ⟨S200000, .i32⟩
  | 5 => ⟨S200000, .i32⟩
  | 6 => ⟨S200000, .i32⟩
  | 7 => ⟨S200000x1, .i32⟩
  | 8 => ⟨S200000x32, .f32⟩
  | 9 => ⟨S_, .i32⟩
  | 10 => ⟨S200000, .i32⟩
  | 11 => ⟨S200000, .i1⟩
  | 12 => ⟨S_, .i32⟩
  | 13 => ⟨S200000, .i32⟩
  | 14 => ⟨S200000, .i32⟩
  | 15 => ⟨S200000, .i32⟩
  | 16 => ⟨S200000x1, .i32⟩
  | 17 => ⟨S200000x32, .f32⟩
  | 18 => ⟨S200000x32, .f32⟩
  | 19 => ⟨S200000x32, .f32⟩
  | 20 => ⟨S200000x32, .f32⟩
  | 21 => ⟨S_, .f32⟩
  | 22 => ⟨S200000, .f32⟩
  | 23 => ⟨S200000, .f32⟩
  | 24 => ⟨S_, .i32⟩
  | 25 => ⟨S200000, .i32⟩
  | 26 => ⟨S200000, .i1⟩
  | 27 => ⟨S_, .i32⟩
  | 28 => ⟨S200000, .i32⟩
  | 29 => ⟨S200000, .i32⟩
  | 30 => ⟨S200000, .i32⟩
  | 31 => ⟨S200000x1, .i32⟩
  | 32 => ⟨S200000x32, .f32⟩
  | 33 => ⟨S200000x32, .f32⟩
  | 34 => ⟨S200000x32, .f32⟩
  | 35 => ⟨S_, .f32⟩
  | 36 => ⟨S200000, .f32⟩
  | 37 => ⟨S200000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_10 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_11 : Ref sig .tc := ⟨.hbm, 75, rfl⟩
abbrev main_v49 : Ref sig .tc := ⟨.hbm, 76, rfl⟩
abbrev main_v50 : Ref sig .tc := ⟨.hbm, 77, rfl⟩
abbrev main_c_12 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_13 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_14 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_15 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_16 : Ref sig .tc := ⟨.hbm, 109, rfl⟩
abbrev main_v78 : Ref sig .tc := ⟨.hbm, 110, rfl⟩
abbrev main_v79 : Ref sig .tc := ⟨.hbm, 111, rfl⟩
abbrev main_c_17 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_18 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_c_20 : Ref sig .tc := ⟨.hbm, 128, rfl⟩
abbrev main_v93 : Ref sig .tc := ⟨.hbm, 129, rfl⟩
abbrev main_v94 : Ref sig .tc := ⟨.hbm, 130, rfl⟩
abbrev main_c_21 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_c_22 : Ref sig .tc := ⟨.hbm, 137, rfl⟩
abbrev main_v100 : Ref sig .tc := ⟨.hbm, 138, rfl⟩
abbrev main_v101 : Ref sig .tc := ⟨.hbm, 139, rfl⟩
abbrev main_c_23 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_24 : Ref sig .tc := ⟨.hbm, 149, rfl⟩
abbrev main_v110 : Ref sig .tc := ⟨.hbm, 150, rfl⟩
abbrev main_v111 : Ref sig .tc := ⟨.hbm, 151, rfl⟩
abbrev main_c_25 : Ref sig .tc := ⟨.hbm, 152, rfl⟩
abbrev main_v112 : Ref sig .tc := ⟨.hbm, 153, rfl⟩
abbrev main_v113 : Ref sig .tc := ⟨.hbm, 154, rfl⟩
abbrev main_c_26 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_cst_27 : Ref sig .tc := ⟨.hbm, 163, rfl⟩
abbrev main_v121 : Ref sig .tc := ⟨.hbm, 164, rfl⟩
abbrev main_v122 : Ref sig .tc := ⟨.hbm, 165, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x256_d1 : Shape.Concatenates [S50000x128, S50000x128] S50000x256 1
  reducesTo_S50000x32_S50000_d1 : S50000x32.ReducesTo [1] S50000
  h_S_ : 0 < S_.numel
  bcast_S_S50000x1 : S_.BroadcastsInDim S50000x1 (![] : Fin 0 → Fin S50000x1.rank)
  bcast_S50000x1_S50000x32_0_1 : S50000x1.BroadcastsInDim S50000x32 (![0, 1] : Fin 2 → Fin S50000x32.rank)
  bcast_S_S200000 : S_.BroadcastsInDim S200000 (![] : Fin 0 → Fin S200000.rank)
  bcast_S200000_S200000x1_0 : S200000.BroadcastsInDim S200000x1 (![0] : Fin 1 → Fin S200000x1.rank)
  reducesTo_S200000x32_S200000_d1 : S200000x32.ReducesTo [1] S200000
  bcast_S_S200000x1 : S_.BroadcastsInDim S200000x1 (![] : Fin 0 → Fin S200000x1.rank)
  bcast_S200000x1_S200000x32_0_1 : S200000x1.BroadcastsInDim S200000x32 (![0, 1] : Fin 2 → Fin S200000x32.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x256_S256x32_S50000x32_1_0_0_1_n_n_wf : DotDims.WF S50000x256 S256x32 S50000x32 [1] [0] [0] [1] [] []
  gather_S1000x32_S200000x1_S200000x32_1_0_n_n_0_1_132_wf : GatherDims.WF S1000x32 S200000x1 S200000x32 [1] [0] [] [0] [] 1 ![1, 32]
  gather_S50000x32_S200000x1_S200000x32_1_0_n_n_0_1_132_wf : GatherDims.WF S50000x32 S200000x1 S200000x32 [1] [0] [] [0] [] 1 ![1, 32]

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x256_S256x32_S50000x32_1_0_0_1_n_n : DotDims S50000x256 S256x32 S50000x32 where
  lhsContracting := [1]
  rhsContracting := [0]
  lhsNonContracting := [0]
  rhsNonContracting := [1]
  lhsBatch := []
  rhsBatch := []
  wf := dot_S50000x256_S256x32_S50000x32_1_0_0_1_n_n_wf
def gather_S1000x32_S200000x1_S200000x32_1_0_n_n_0_1_132 : GatherDims S1000x32 S200000x1 S200000x32 where
  offsetDims := [1]
  collapsedSliceDims := [0]
  operandBatchingDims := []
  startIndicesBatchingDims := []
  startIndexMap := [0]
  indexVectorDim := 1
  sliceSizes := ![1, 32]
  wf := gather_S1000x32_S200000x1_S200000x32_1_0_n_n_0_1_132_wf
def gather_S50000x32_S200000x1_S200000x32_1_0_n_n_0_1_132 : GatherDims S50000x32 S200000x1 S200000x32 where
  offsetDims := [1]
  collapsedSliceDims := [0]
  operandBatchingDims := []
  startIndicesBatchingDims := []
  startIndexMap := [0]
  indexVectorDim := 1
  sliceSizes := ![1, 32]
  wf := gather_S50000x32_S200000x1_S200000x32_1_0_n_n_0_1_132_wf

class Facts : Prop extends Facts₀ where

variable [Facts]
-- ==== Proof.KernelRun.lean ====
/-
  The kernel program's run with its two results named.

  @main is nine segments: five stretches of host operations and four pallas regions between them.  Every weakly
  fair execution from a memory with zero counters terminates without a fault, and in the final state each unscoped
  buffer holds the contents the segments' fold leaves there: the two result vectors hold the last boundary's contents
  at their buffers, and the thirteen arguments hold what they were launched with.  The launch theorem and its
  side conditions are those of the frame; only the facts read off the final state differ.
-/
import proofs.«180076_j1056561954979_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the two results end at the last boundary's
    contents and the arguments as launched. -/
theorem run_results : θ_run defs (onTc (τ := τ) (main (F := F))) ⟨m, fun _ => 0, ρ⟩ (fun r => ∀ c : Dev nD,
      r.2.mem ((c.tc : Thread nD τ).loc main_v73) = W9 m ρ c (Proc.devRef .tc main_v73)
      ∧ r.2.mem ((c.tc : Thread nD τ).loc main_v74) = W9 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v73 (by decide)),
       h c _ (mem_uc main_v74 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c)⟩)

end Cert.KernelIdeal.Hand

end
-- ==== Proof.ChainArgs.lean ====
/-
  An argument array is still what it was launched with at every boundary where a later step reads it.

  No host operation writes an argument's buffer and no region writes one back, so the contents of an argument's
  buffer at a segment boundary walk back, boundary by boundary, to the launch memory.  Stated here for exactly the
  (boundary, argument) pairs the later segments read: the weights and biases where their layer's region starts, the
  edge lists where the second aggregation starts, the projection weight and the input features where the projection
  starts, and the relation table and the four triple index vectors where the row gathers start.
-/
import proofs.«180076_j1056561954979_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.SL.Sem

/-- A buffer that no operation of a host stretch writes holds after the stretch what it held before. -/
macro "past_host% " ops:ident : term =>
  `(StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

variable {F : FTy → Type} [FloatOps F]
variable (m : (ℓ : Loc nD τ sig) → Buf (Elt F) ℓ) (ρ : Dev nD → PrngReg) (c : Dev nD)

theorem W1_main_arg1 : W1 m ρ c (Proc.devRef .tc main_arg1) = m ((c : Thread nD τ).loc main_arg1) :=
  calc W1 m ρ c (Proc.devRef .tc main_arg1)
    _ = W0 m ρ c (Proc.devRef .tc main_arg1) := past_host% hostOps0
    _ = m ((c : Thread nD τ).loc main_arg1) := rfl

theorem W1_main_arg2 : W1 m ρ c (Proc.devRef .tc main_arg2) = m ((c : Thread nD τ).loc main_arg2) :=
  calc W1 m ρ c (Proc.devRef .tc main_arg2)
    _ = W0 m ρ c (Proc.devRef .tc main_arg2) := past_host% hostOps0
    _ = m ((c : Thread nD τ).loc main_arg2) := rfl

theorem W1_main_arg7 : W1 m ρ c (Proc.devRef .tc main_arg7) = m ((c : Thread nD τ).loc main_arg7) :=
  calc W1 m ρ c (Proc.devRef .tc main_arg7)
    _ = W0 m ρ c (Proc.devRef .tc main_arg7) := past_host% hostOps0
    _ = m ((c : Thread nD τ).loc main_arg7) := rfl

theorem W1_main_arg8 : W1 m ρ c (Proc.devRef .tc main_arg8) = m ((c : Thread nD τ).loc main_arg8) :=
  calc W1 m ρ c (Proc.devRef .tc main_arg8)
    _ = W0 m ρ c (Proc.devRef .tc main_arg8) := past_host% hostOps0
    _ = m ((c : Thread nD τ).loc main_arg8) := rfl

theorem W1_main_arg0 : W1 m ρ c (Proc.devRef .tc main_arg0) = m ((c : Thread nD τ).loc main_arg0) :=
  calc W1 m ρ c (Proc.devRef .tc main_arg0)
    _ = W0 m ρ c (Proc.devRef .tc main_arg0) := past_host% hostOps0
    _ = m ((c : Thread nD τ).loc main_arg0) := rfl

theorem W2_main_arg7 : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := past_host% hostOps0
    _ = m ((c : Thread nD τ).loc main_arg7) := rfl

theorem W2_main_arg8 : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := past_host% hostOps0
    _ = m ((c : Thread nD τ).loc main_arg8) := rfl

theorem W3_main_arg3 : W3 m ρ c (Proc.devRef .tc main_arg3) = m ((c : Thread nD τ).loc main_arg3) :=
  calc W3 m ρ c (Proc.devRef .tc main_arg3)
    _ = W2 m ρ c (Proc.devRef .tc main_arg3) := past_host% hostOps1
    _ = W1 m ρ c (Proc.devRef .tc main_arg3) := W2_of_ne m ρ c main_arg3 (by decide)
    _ = W0 m ρ c (Proc.devRef .tc main_arg3) := past_host% hostOps0
    _ = m ((c : Thread nD τ).loc main_arg3) := rfl

theorem W3_main_arg4 : W3 m ρ c (Proc.devRef .tc main_arg4) = m ((c : Thread nD τ).loc main_arg4) :=
  calc W3 m ρ c (Proc.devRef .tc main_arg4)
    _ = W2 m ρ c (Proc.devRef .tc main_arg4) := past_host% hostOps1
    _ = W1 m ρ c (Proc.devRef .tc main_arg4) := W2_of_ne m ρ c main_arg4 (by decide)
    _ = W0 m ρ c (Proc.devRef .tc main_arg4) := past_host% hostOps0
    _ = m ((c : Thread nD τ).loc main_arg4) := rfl

theorem W4_main_arg5 : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := past_host% hostOps1
    _ = W1 m ρ c (Proc.devRef .tc main_arg5) := W2_of_ne m ρ c main_arg5 (by decide)
    _ = W0 m ρ c (Proc.devRef .tc main_arg5) := past_host% hostOps0
    _ = m ((c : Thread nD τ).loc main_arg5) := rfl

theorem W5_main_arg0 : W5 m ρ c (Proc.devRef .tc main_arg0) = m ((c : Thread nD τ).loc main_arg0) :=
  calc W5 m ρ c (Proc.devRef .tc main_arg0)
    _ = W4 m ρ c (Proc.devRef .tc main_arg0) := past_host% hostOps2
    _ = W3 m ρ c (Proc.devRef .tc main_arg0) := W4_of_ne m ρ c main_arg0 (by decide)
    _ = W2 m ρ c (Proc.devRef .tc main_arg0) := past_host% hostOps1
    _ = W1 m ρ c (Proc.devRef .tc main_arg0) := W2_of_ne m ρ c main_arg0 (by decide)
    _ = W0 m ρ c (Proc.devRef .tc main_arg0) := past_host% hostOps0
    _ = m ((c : Thread nD τ).loc main_arg0) := rfl

theorem W6_main_arg6 : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := past_host% hostOps2
    _ = W3 m ρ c (Proc.devRef .tc main_arg6) := W4_of_ne m ρ c main_arg6 (by decide)
    _ = W2 m ρ c (Proc.devRef .tc main_arg6) := past_host% hostOps1
    _ = W1 m ρ c (Proc.devRef .tc main_arg6) := W2_of_ne m ρ c main_arg6 (by decide)
    _ = W0 m ρ c (Proc.devRef .tc main_arg6) := past_host% hostOps0
    _ = m ((c : Thread nD τ).loc main_arg6) := rfl

theorem W6_main_arg9 : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := past_host% hostOps2
    _ = W3 m ρ c (Proc.devRef .tc main_arg9) := W4_of_ne m ρ c main_arg9 (by decide)
    _ = W2 m ρ c (Proc.devRef .tc main_arg9) := past_host% hostOps1
    _ = W1 m ρ c (Proc.devRef .tc main_arg9) := W2_of_ne m ρ c main_arg9 (by decide)
    _ = W0 m ρ c (Proc.devRef .tc main_arg9) := past_host% hostOps0
    _ = m ((c : Thread nD τ).loc main_arg9) := rfl

theorem W6_main_arg10 : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := past_host% hostOps2
    _ = W3 m ρ c (Proc.devRef .tc main_arg10) := W4_of_ne m ρ c main_arg10 (by decide)
    _ = W2 m ρ c (Proc.devRef .tc main_arg10) := past_host% hostOps1
    _ = W1 m ρ c (Proc.devRef .tc main_arg10) := W2_of_ne m ρ c main_arg10 (by decide)
    _ = W0 m ρ c (Proc.devRef .tc main_arg10) := past_host% hostOps0
    _ = m ((c : Thread nD τ).loc main_arg10) := rfl

theorem W6_main_arg11 : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := past_host% hostOps2
    _ = W3 m ρ c (Proc.devRef .tc main_arg11) := W4_of_ne m ρ c main_arg11 (by decide)
    _ = W2 m ρ c (Proc.devRef .tc main_arg11) := past_host% hostOps1
    _ = W1 m ρ c (Proc.devRef .tc main_arg11) := W2_of_ne m ρ c main_arg11 (by decide)
    _ = W0 m ρ c (Proc.devRef .tc main_arg11) := past_host% hostOps0
    _ = m ((c : Thread nD τ).loc main_arg11) := rfl

theorem W6_main_arg12 : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := past_host% hostOps2
    _ = W3 m ρ c (Proc.devRef .tc main_arg12) := W4_of_ne m ρ c main_arg12 (by decide)
    _ = W2 m ρ c (Proc.devRef .tc main_arg12) := past_host% hostOps1
    _ = W1 m ρ c (Proc.devRef .tc main_arg12) := W2_of_ne m ρ c main_arg12 (by decide)
    _ = W0 m ρ c (Proc.devRef .tc main_arg12) := past_host% hostOps0
    _ = m ((c : Thread nD τ).loc main_arg12) := rfl

end Cert.KernelIdeal.Hand

end
-- ==== Proof.HostFns.lean ====
/-
  The host-side steps both programs share, each as one function of arrays.

  * `degRsqrtCol ids`: count how often each of the 50000 nodes occurs in `ids` (a segment sum of ones), floor the
    count at 1, take the reciprocal square root, and keep it as a 50000×1 column — the out-degree scale from the edge
    sources and the in-degree scale from the edge targets.
  * `wrapIdx`: a negative index counts from the end (jnp indexing): add the extent to it.
  * `aggregate x dor src dst`: scale the rows of `x` by the out-degree column, take the row of each edge's source, and
    sum those rows into each edge's target.
  * `nodeRows` / `relRows`: the rows of a node table / of the relation table picked by an index vector.
  * `headW` / `tailW`: the first and the last 128 rows of the 256×32 projection weight.
  * `flatten`: a 200000×1 column as a vector.

  Nothing is proved about their values: the two programs apply the same functions, and the proof only needs that.
-/
import proofs.«180076_j1056561954979_2_alg».proof.Proof.Gen.KernelIdeal

noncomputable section

namespace Cert.KernelIdeal.Hand

open Cert.KernelIdeal Idealize.ShloMosaic
open Cert.KernelIdeal.Facts₀ Cert.KernelIdeal.Facts

variable {F : FTy → Type} [FloatOps F]

/-- The reciprocal square root of each node's occurrence count (floored at 1) in `ids`, as a column. -/
def degRsqrtCol (ids : (⟨S800000, .i32⟩ : BufTy).Contents (Elt F)) : (⟨S50000x1, .f32⟩ : BufTy).Contents (Elt F) :=
  broadcastInDim S50000x1 ![0] bcast_S50000_S50000x1_0
    (Host.rsqrt
      (maximumf
        (Host.scatterAdd scatter_S50000_S800000x1_S800000_n_0_0_1
          (broadcastInDim S50000 ![] bcast_S_S50000 (constant S_ .f32 0x00000000#32))
          (broadcastInDim S800000x1 ![0] bcast_S800000_S800000x1_0 ids)
          (broadcastInDim S800000 ![] bcast_S_S800000 (constant S_ .f32 0x3F800000#32)))
        (broadcastInDim S50000 ![] bcast_S_S50000 (constant S_ .f32 0x3F800000#32))))

/-- Edge endpoints with negative values counted from the end of the 50000 nodes. -/
def wrapEdge (ids : (⟨S800000, .i32⟩ : BufTy).Contents (Elt F)) : (⟨S800000, .i32⟩ : BufTy).Contents (Elt F) :=
  select (cmpi .slt ids (broadcastInDim S800000 ![] bcast_S_S800000 (constantI S_ 32 0#32)))
    (addi ids (broadcastInDim S800000 ![] bcast_S_S800000 (constantI S_ 32 50000#32))) ids

/-- Triple entries with negative values counted from the end of a table of `n` rows. -/
def wrapTriple (n : BitVec 32) (ids : (⟨S200000, .i32⟩ : BufTy).Contents (Elt F)) : (⟨S200000, .i32⟩ : BufTy).Contents (Elt F) :=
  select (cmpi .slt ids (broadcastInDim S200000 ![] bcast_S_S200000 (constantI S_ 32 0#32)))
    (addi ids (broadcastInDim S200000 ![] bcast_S_S200000 (constantI S_ 32 n))) ids

/-- The rows of `x` scaled by the out-degree column, gathered at the edge sources and summed into the edge targets. -/
def aggregate (x : (⟨S50000x128, .f32⟩ : BufTy).Contents (Elt F)) (dor : (⟨S50000x1, .f32⟩ : BufTy).Contents (Elt F))
    (src dst : (⟨S800000, .i32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128
      (mulf x (broadcastInDim S50000x128 ![0, 1] bcast_S50000x1_S50000x128_0_1 dor))
      (broadcastInDim S800000x1 ![0] bcast_S800000_S800000x1_0 (wrapEdge src)))

/-- The rows of a 50000×32 node table picked by an index vector. -/
def nodeRows (tbl : (⟨S50000x32, .f32⟩ : BufTy).Contents (Elt F)) (ids : (⟨S200000, .i32⟩ : BufTy).Contents (Elt F)) :
    (⟨S200000x32, .f32⟩ : BufTy).Contents (Elt F) :=
  Host.gather gather_S50000x32_S200000x1_S200000x32_1_0_n_n_0_1_132 tbl
    (broadcastInDim S200000x1 ![0] bcast_S200000_S200000x1_0 (wrapTriple 50000#32 ids))

/-- The rows of the 1000×32 relation table picked by an index vector. -/
def relRows (tbl : (⟨S1000x32, .f32⟩ : BufTy).Contents (Elt F)) (ids : (⟨S200000, .i32⟩ : BufTy).Contents (Elt F)) :
    (⟨S200000x32, .f32⟩ : BufTy).Contents (Elt F) :=
  Host.gather gather_S1000x32_S200000x1_S200000x32_1_0_n_n_0_1_132 tbl
    (broadcastInDim S200000x1 ![0] bcast_S200000_S200000x1_0 (wrapTriple 1000#32 ids))

/-- The first 128 rows of the projection weight. -/
def headW (w : (⟨S256x32, .f32⟩ : BufTy).Contents (Elt F)) : (⟨S128x32, .f32⟩ : BufTy).Contents (Elt F) :=
  extractStridedSlice S128x32 ![0, 0] w slices_S256x32_S128x32_0_0

/-- The last 128 rows of the projection weight. -/
def tailW (w : (⟨S256x32, .f32⟩ : BufTy).Contents (Elt F)) : (⟨S128x32, .f32⟩ : BufTy).Contents (Elt F) :=
  extractStridedSlice S128x32 ![128, 0] w slices_S256x32_S128x32_128_0

/-- A column of 200000 scores as a vector. -/
def flatten (s : (⟨S200000x1, .f32⟩ : BufTy).Contents (Elt F)) : (⟨S200000, .f32⟩ : BufTy).Contents (Elt F) :=
  shapeCast S200000 s shapeCasts_S200000x1_S200000

end Cert.KernelIdeal.Hand

end
-- ==== Proof.RowSpec.lean ====
/-
  The three dense stages of the network, as functions of one row.

  Every stage computes row r of its result from row r of its row-indexed operands (and from whole weight
  matrices), so each is stated once for a single row and then lifted to arrays of any number of rows:

  * a graph-convolution layer's dense half:  tanh( ((a · d) W)_q + b_q )  for a row a of aggregated features,
    its in-degree scale d, a 128×128 weight W and a bias b;
  * the projection of a pair of rows (x, f) through two 128×32 weights, (x Wa)_q + (f Wb)_q, divided by the
    larger of its Euclidean norm and a floor eps;
  * the translation score: with the relation row r scaled down by max(‖r‖, 1), the Euclidean norm of h + r − t.

  All arithmetic is on the extended reals.
-/
import Idealize.ShloMosaic.PureOps.Ideal
import Idealize.ShloMosaic.Lib.ValueIdx

noncomputable section

open scoped BigOperators

namespace Cert.Gcn

open Idealize.ShloMosaic Idealize.ShloMosaic.ValueIdx

/-- The dense half of a graph-convolution layer on one row: the row scaled by `d`, times `W`, plus `b`, through tanh. -/
def denseRow (a : Fin 128 → EReal) (d : EReal) (W : Fin 128 → Fin 128 → EReal) (b : Fin 128 → EReal) (q : Fin 128) : EReal :=
  Ideal.tanh ((∑ k : Fin 128, (a k * d) * W k q) + b q)

/-- The projection of a pair of rows before normalisation: `(x Wa)_q + (f Wb)_q`. -/
def projRaw (x f : Fin 128 → EReal) (Wa Wb : Fin 128 → Fin 32 → EReal) (q : Fin 32) : EReal :=
  (∑ k : Fin 128, x k * Wa k q) + ∑ k : Fin 128, f k * Wb k q

/-- The larger of the Euclidean norm of a 32-vector and a floor. -/
def normFloor (z : Fin 32 → EReal) (floor : EReal) : EReal :=
  max (Ideal.sqrt (∑ j : Fin 32, z j * z j)) floor

/-- The projected row divided by the larger of its norm and `eps`. -/
def projRow (eps : EReal) (x f : Fin 128 → EReal) (Wa Wb : Fin 128 → Fin 32 → EReal) (q : Fin 32) : EReal :=
  Ideal.div (projRaw x f Wa Wb q) (normFloor (projRaw x f Wa Wb) eps)

/-- A relation row scaled down to norm at most `one`. -/
def relRow (one : EReal) (r : Fin 32 → EReal) (k : Fin 32) : EReal :=
  Ideal.div (r k) (normFloor r one)

/-- The translation score of a head row, a relation row and a tail row: the norm of `h + r' − t`. -/
def scoreRow (one : EReal) (h r t : Fin 32 → EReal) : EReal :=
  Ideal.sqrt (∑ k : Fin 32, ((h k + relRow one r k) - t k) * ((h k + relRow one r k) - t k))

/-- Row `p` of a matrix with `c` columns. -/
abbrev rowOf {n c : Nat} (x : (⟨2, ![n, c]⟩ : Shape).Idx → EReal) (p : Fin n) : Fin c → EReal := fun k => x (ix2 p k)

/-- A matrix as a function of its two coordinates. -/
abbrev mat {n c : Nat} (x : (⟨2, ![n, c]⟩ : Shape).Idx → EReal) : Fin n → Fin c → EReal := fun k q => x (ix2 k q)

/-- A vector as a function of its coordinate. -/
abbrev vec {n : Nat} (x : (⟨1, ![n]⟩ : Shape).Idx → EReal) : Fin n → EReal := fun q => x (ix1 q)

/-- The dense half of a layer on an array of `n` rows. -/
def dense {n : Nat} (agg : (⟨2, ![n, 128]⟩ : Shape).Idx → EReal) (dis : (⟨2, ![n, 1]⟩ : Shape).Idx → EReal)
    (W : Fin 128 → Fin 128 → EReal) (b : Fin 128 → EReal) : (⟨2, ![n, 128]⟩ : Shape).Idx → EReal :=
  fun i => denseRow (rowOf agg (i 0)) (dis (ix2 (i 0) (0 : Fin 1))) W b (i 1)

/-- The normalised projection on an array of `n` rows. -/
def proj {n : Nat} (eps : EReal) (x feat : (⟨2, ![n, 128]⟩ : Shape).Idx → EReal) (Wa Wb : Fin 128 → Fin 32 → EReal) :
    (⟨2, ![n, 32]⟩ : Shape).Idx → EReal :=
  fun i => projRow eps (rowOf x (i 0)) (rowOf feat (i 0)) Wa Wb (i 1)

/-- The scores of `n` triples, kept as a column. -/
def score {n : Nat} (one : EReal) (h r t : (⟨2, ![n, 32]⟩ : Shape).Idx → EReal) : (⟨2, ![n, 1]⟩ : Shape).Idx → EReal :=
  fun i => scoreRow one (rowOf h (i 0)) (rowOf r (i 0)) (rowOf t (i 0))

/-- The scores of `n` triples, as a vector. -/
def scoreFlat {n : Nat} (one : EReal) (h r t : (⟨2, ![n, 32]⟩ : Shape).Idx → EReal) : (⟨1, ![n]⟩ : Shape).Idx → EReal :=
  fun i => scoreRow one (rowOf h (i 0)) (rowOf r (i 0)) (rowOf t (i 0))

theorem dense_apply {n : Nat} (agg : (⟨2, ![n, 128]⟩ : Shape).Idx → EReal) (dis : (⟨2, ![n, 1]⟩ : Shape).Idx → EReal)
    (W : Fin 128 → Fin 128 → EReal) (b : Fin 128 → EReal) (p : Fin n) (q : Fin 128) :
    dense agg dis W b (ix2 p q) = denseRow (rowOf agg p) (dis (ix2 p (0 : Fin 1))) W b q := rfl

theorem proj_apply {n : Nat} (eps : EReal) (x feat : (⟨2, ![n, 128]⟩ : Shape).Idx → EReal) (Wa Wb : Fin 128 → Fin 32 → EReal)
    (p : Fin n) (q : Fin 32) : proj eps x feat Wa Wb (ix2 p q) = projRow eps (rowOf x p) (rowOf feat p) Wa Wb q := rfl

theorem score_apply {n : Nat} (one : EReal) (h r t : (⟨2, ![n, 32]⟩ : Shape).Idx → EReal) (p : Fin n) (u : Fin 1) :
    score one h r t (ix2 p u) = scoreRow one (rowOf h p) (rowOf r p) (rowOf t p) := rfl

theorem scoreFlat_apply {n : Nat} (one : EReal) (h r t : (⟨2, ![n, 32]⟩ : Shape).Idx → EReal) (p : Fin n) :
    scoreFlat one h r t (ix1 p) = scoreRow one (rowOf h p) (rowOf r p) (rowOf t p) := rfl

end Cert.Gcn

end
-- ==== Proof.LibPlainDot.lean ====
/-
  A rank-2 matrix product read at an index, on the extended reals.

  A product of an M×K by a K×N operand whose dimension numbers contract the left operand's axis 1 with the right
  operand's axis 0, with no batch axis, has at row p and column q the value  ∑ k, l (p, k) * r (k, q).  This holds
  both for the accumulating product started from the zero array and for the host's general dot, whatever name the
  program's dimension record has: a record with those six lists is the plain one.  Because the value at (p, q)
  reads only row p of the left operand, a block of rows of a product is the product of that block of rows.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- A dimension record of an M×K by K×N product with contraction [1]×[0], free axes [0] and [1] and no batch axis
    is the plain record: the side condition is a proposition, so the six lists determine it. -/
theorem eq_plain {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain M K N := by
  cases d
  simp only at h1 h2 h3 h4 h5 h6
  subst h1 h2 h3 h4 h5 h6
  rfl

/-- The plain record contracts over one axis of extent K. -/
abbrev kEquiv (M K N : Nat) : (DotDims.plain M K N).contr.Idx ≃ Fin K := contrEquiv1 (DotDims.plain M K N) K rfl rfl

/-- The left operand's index at result (p, q) and contraction position k is (p, k). -/
theorem lhsIdx_plain {M K N : Nat} (p : Fin M) (q : Fin N) (k : Fin K) :
    (DotDims.plain M K N).lhsIdx (ix2 p q) ((kEquiv M K N).symm k) = ix2 p k := by
  funext a
  apply Fin.ext
  match a with
  | ⟨0, _⟩ => rfl
  | ⟨1, _⟩ =>
    exact ((DotDims.plain M K N).lhsIdx_val_of_single rfl (ix2 p q) _).trans
      (contrEquiv1_symm_val (DotDims.plain M K N) K rfl rfl k)

/-- The right operand's index at result (p, q) and contraction position k is (k, q). -/
theorem rhsIdx_plain {M K N : Nat} (p : Fin M) (q : Fin N) (k : Fin K) :
    (DotDims.plain M K N).rhsIdx (ix2 p q) ((kEquiv M K N).symm k) = ix2 k q := by
  funext a
  apply Fin.ext
  match a with
  | ⟨0, _⟩ =>
    exact ((DotDims.plain M K N).rhsIdx_val_of_single rfl (ix2 p q) _).trans
      (contrEquiv1_symm_val (DotDims.plain M K N) K rfl rfl k)
  | ⟨1, _⟩ => rfl

/-- The sum over the plain record's contraction positions, re-indexed by k below K. -/
theorem sum_plain {M K N : Nat} {φ₁ φ₂ : FTy} (l : FVec Ideal ⟨2, ![M, K]⟩ φ₁) (r : FVec Ideal ⟨2, ![K, N]⟩ φ₂)
    (p : Fin M) (q : Fin N) :
    (∑ c : (DotDims.plain M K N).contr.Idx,
        l ((DotDims.plain M K N).lhsIdx (ix2 p q) c) * r ((DotDims.plain M K N).rhsIdx (ix2 p q) c) : EReal)
      = ∑ k : Fin K, l (ix2 p k) * r (ix2 k q) := by
  rw [← Equiv.sum_comp (kEquiv M K N).symm]
  refine Finset.sum_congr rfl fun k _ => ?_
  rw [lhsIdx_plain, rhsIdx_plain]

/-- The accumulating product started from the zero array, at (p, q): the sum over k of l (p, k) * r (k, q). -/
theorem matmul_zero_apply {M K N : Nat} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) := by
  subst hd
  rw [Ideal.matmul_constant_zero_apply]
  exact sum_plain l r p q

/-- The host's general dot at (p, q): the same sum. -/
theorem dotGeneral_apply {M K N : Nat} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) := by
  subst hd
  rw [Ideal.dotGeneral_apply]
  exact sum_plain l r p q

end Idealize.ShloMosaic.PlainDot

end
-- ==== Proof.LibKeepdims.lean ====
/-
  A row sum kept as a column, read at an index.

  `jnp.sum(x, axis=-1, keepdims=True)` leaves an [a] vector cast to an [a, 1] column, and adding it to its own
  transpose broadcasts the column along the rows of an [a, b] matrix. Read at an index, the column at (i, u) is
  the vector at i, and the column broadcast along the rows at (p, c) is the column at (p, 0). (The companion
  forms — a row broadcast down the columns, the transpose of a matrix — are in the library's layout lemmas.)
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.DensePay.lean ====
/-
  The dense half of a graph-convolution layer, as the kernel body computes it on one block of 5000 rows.

  The body scales each row of its 5000×128 block by that row's entry of a 5000×1 column, multiplies by the 128×128
  weight into a zero accumulator, adds the bias row and applies tanh.  Read at row p and column q this is the
  row function `denseRow` of row p of the block: the product into a zero accumulator is the plain sum over k, the
  column broadcast along a row reads the column at (p, 0), and the bias cast to one row and broadcast down the
  rows reads the bias at q.  Changes of float format are the identity on the extended reals.
-/
import proofs.«180076_j1056561954979_2_alg».proof.Proof.Gen.KernelIdeal.Skeleton
import proofs.«180076_j1056561954979_2_alg».proof.Proof.RowSpec
import proofs.«180076_j1056561954979_2_alg».proof.Proof.LibPlainDot
import proofs.«180076_j1056561954979_2_alg».proof.Proof.LibKeepdims
import Idealize.ShloMosaic.Lib.Pipeline.Value
import Idealize.ShloMosaic.Lib.ValueLayout
import Idealize.ShloMosaic.Lib.ValueIdx

noncomputable section

open scoped BigOperators

namespace Cert.KernelIdeal.Hand

open Cert.KernelIdeal Cert.KernelIdeal.Gen Idealize.ShloMosaic Idealize.ShloMosaic.ValueIdx

/-- The body's product contracts the block's columns with the weight's rows and has no batch axis. -/
theorem dot_dense_plain : dot_S5000x128_S128x128_S5000x128_1_0_0_1_n_n = DotDims.plain 5000 128 128 :=
  PlainDot.eq_plain _ rfl rfl rfl rfl rfl rfl

/-- The bias as one row, repeated down the 5000 rows, reads the bias at the column. -/
theorem bias_rows_apply (b : FVec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply _ _ p q).trans (shapeCast_a_1a_apply b _ 0 q)

/-- The first layer's body at (p, q) of its block. -/
theorem dense_pay0 (x0 : Vec Ideal S5000x1 .f32) (x4 : Vec Ideal S5000x128 .f32) (x8 : Vec Ideal S128x128 .f32)
    (x11 : Vec Ideal S128 .f32) (p : Fin 5000) (q : Fin 128) :
    k0_pay1 (F := Ideal) x0 x4 x8 x11 (ix2 p q)
      = Gcn.denseRow (Gcn.rowOf x4 p) (x0 (ix2 p (0 : Fin 1))) (Gcn.mat x8) (Gcn.vec x11) q := by
  unfold k0_pay1 Gcn.denseRow
  refine congrArg Ideal.tanh ?_
  refine congrArg₂ (· + ·) ((PlainDot.matmul_zero_apply _ dot_dense_plain none _ _ p q).trans ?_) (bias_rows_apply x11 p q)
  refine Finset.sum_congr rfl fun k _ => ?_
  show (shapeCast S5000x128 x4 shapeCasts_S5000x128_S5000x128 (ix2 p k)
      * broadcastTo S5000x128 (shapeCast S5000x1 (shapeCast S5000x1 x0 shapeCasts_S5000x1_S5000x1) shapeCasts_S5000x1_S5000x1)
          broadcasts_S5000x1_S5000x128 (ix2 p k)) * x8 (ix2 k q) = _
  rw [shapeCast_self, shapeCast_self, shapeCast_self, Keepdims.broadcastTo_a1_ab_apply]

/-- The second layer's body is the same text. -/
theorem dense_pay1 (x0 : Vec Ideal S5000x1 .f32) (x4 : Vec Ideal S5000x128 .f32) (x8 : Vec Ideal S128x128 .f32)
    (x11 : Vec Ideal S128 .f32) (p : Fin 5000) (q : Fin 128) :
    k1_pay1 (F := Ideal) x0 x4 x8 x11 (ix2 p q)
      = Gcn.denseRow (Gcn.rowOf x4 p) (x0 (ix2 p (0 : Fin 1))) (Gcn.mat x8) (Gcn.vec x11) q :=
  dense_pay0 x0 x4 x8 x11 p q

end Cert.KernelIdeal.Hand

end
-- ==== Proof.Region0.lean ====
/-
  Region 0: the dense half of a graph-convolution layer, block by block, is the layer on the whole array.

  The grid has ten points; point t stages rows 5000·t … 5000·t + 4999 of the aggregated features and of the
  in-degree column, the whole weight matrix and the whole bias, and writes back the same rows of the result.  Row p of
  what point t writes is the layer's row function of row 5000·t + p of the operands, so every written block is the
  block of one whole-array function; the ten blocks cover all 50000 rows, so the result array ends holding that function.
-/
import proofs.«180076_j1056561954979_2_alg».proof.Proof.Gen.KernelIdeal.Frame
import proofs.«180076_j1056561954979_2_alg».proof.Proof.DensePay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero2_0 : (![0, 0] : Fin 2 → Nat) = fun _ => 0 := funext fun a => by fin_cases a <;> rfl
theorem zero1_0 : (![0] : Fin 1 → Nat) = fun _ => 0 := funext fun a => by fin_cases a; rfl

/-- The block indices over the grid: the row-blocked windows move with the point, the weight and bias stay. -/
theorem blockIdx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- Row p, column k of the feature block at point t is row 5000·t + p of the array. -/
theorem featBlock0 (c : Dev nD) (t : Fin cfg0.N) (p : Fin 5000) (k : Fin 128) (r : Fin 50000) (hr : r.val = 5000 * t.val + p.val) :
    (iblk0 V c 0 t : Vec Ideal S5000x128 .f32) (ix2 p k) = (V c main_v26 : S50000x128.Idx → EReal) (ix2 r k) := by
  obtain ⟨e0, e1, -⟩ := blockIdx0 t
  unfold iblk0
  rw [View.read_apply]
  show V c main_v26 _ = V c main_v26 _
  refine congrArg (V c main_v26) (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Row p of the column block at point t is row 5000·t + p of the column. -/
theorem colBlock0 (c : Dev nD) (t : Fin cfg0.N) (p : Fin 5000) (r : Fin 50000) (hr : r.val = 5000 * t.val + p.val) :
    (iblk0 V c 1 t : Vec Ideal S5000x1 .f32) (ix2 p (0 : Fin 1)) = (V c main_v14 : S50000x1.Idx → EReal) (ix2 r (0 : Fin 1)) := by
  obtain ⟨-, -, e0, e1, -⟩ := blockIdx0 t
  unfold iblk0
  rw [View.read_apply]
  show V c main_v14 _ = V c main_v14 _
  refine congrArg (V c main_v14) (funext fun a => Fin.ext ?_)
  match a with
  | ⟨0, _⟩ => show win0_1.index t (0 : Fin 2) * 5000 + 1 * p.val = r.val; rw [e0, hr]; omega
  | ⟨1, _⟩ => show win0_1.index t (1 : Fin 2) * 1 + 1 * 0 = 0; rw [e1]

/-- The weight's one block is the weight. -/
theorem weightBlock0 (c : Dev nD) (t : Fin cfg0.N) (k q : Fin 128) :
    (iblk0 V c 2 t : Vec Ideal S128x128 .f32) (ix2 k q) = (V c main_arg1 : S128x128.Idx → EReal) (ix2 k q) := by
  obtain ⟨-, -, -, -, e0, e1, -⟩ := blockIdx0 t
  unfold iblk0
  rw [View.read_apply]
  show V c main_arg1 _ = V c main_arg1 _
  refine congrArg (V c main_arg1) (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The bias's one block is the bias. -/
theorem biasBlock0 (c : Dev nD) (t : Fin cfg0.N) (q : Fin 128) :
    (iblk0 V c 3 t : Vec Ideal S128 .f32) (ix1 q) = (V c main_arg2 : S128.Idx → EReal) (ix1 q) := by
  obtain ⟨-, -, -, -, -, -, e0, -⟩ := blockIdx0 t
  unfold iblk0
  rw [View.read_apply]
  show V c main_arg2 _ = V c main_arg2 _
  refine congrArg (V c main_arg2) (funext fun a => Fin.ext ?_)
  match a with
  | ⟨0, _⟩ => show win0_3.index t (0 : Fin 1) * 128 + 1 * q.val = q.val; rw [e0]; omega

/-- The layer on the whole array, of the operands as the region finds them. -/
abbrev layer0 (c : Dev nD) : S50000x128.Idx → EReal :=
  Gcn.dense (V c main_v26 : S50000x128.Idx → EReal) (V c main_v14 : S50000x1.Idx → EReal)
    (Gcn.mat (V c main_arg1 : S128x128.Idx → EReal)) (Gcn.vec (V c main_arg2 : S128.Idx → EReal))

/-- What point t writes back is block t of the layer on the whole array. -/
theorem flushed0 (c : Dev nD) (t : Fin cfg0.N) :
    (dat0 V c).flushed 4 t = ((cfg0.win 4).blk t).view.read (Elt Ideal) (layer0 V c) := by
  show (cfg0.win 4).cut (grid0.coords t) ((dat0 V c).after 4 t) = _
  rw [after0_4]
  unfold out0_4
  rw [View.canon_unit_zero zero2_0]
  simp only [View.ld_unit_zero (S := S5000x128) zero2_0, View.ld_unit_zero (S := S5000x1) zero2_0,
    View.ld_unit_zero (S := S128x128) zero2_0, View.ld_unit_zero (S := S128) zero1_0]
  obtain ⟨-, -, -, -, -, -, -, e0, e1⟩ := blockIdx0 t
  funext j
  obtain ⟨p, q, rfl⟩ : ∃ (p : Fin 5000) (q : Fin 128), j = ix2 p q := ⟨j 0, j 1, eq_ix2 j⟩
  have hr : 5000 * t.val + p.val < 50000 := by
    have ht : t.val < 10 := lt_of_lt_of_eq t.isLt (show cfg0.N = 10 from N_0)
    have := p.isLt; omega
  have hemb : ((cfg0.win 4).blk t).view.emb (ix2 p q) = ix2 (⟨5000 * t.val + p.val, hr⟩ : Fin 50000) q := by
    funext a; apply Fin.ext
    match a with
    | ⟨0, _⟩ => show win0_4.index t (0 : Fin 2) * 5000 + 1 * p.val = 5000 * t.val + p.val; rw [e0]; omega
    | ⟨1, _⟩ => show win0_4.index t (1 : Fin 2) * 128 + 1 * q.val = q.val; rw [e1]; omega
  show k0_pay1 (iblk0 V c 1 t) (iblk0 V c 0 t) (iblk0 V c 2 t) (iblk0 V c 3 t) (ix2 p q)
    = layer0 V c (((cfg0.win 4).blk t).view.emb (ix2 p q))
  rw [hemb, dense_pay0]
  show Gcn.denseRow _ _ _ _ q = Gcn.denseRow _ _ _ _ q
  have h1 : Gcn.rowOf (iblk0 V c 0 t : Vec Ideal S5000x128 .f32) p
      = Gcn.rowOf (V c main_v26 : S50000x128.Idx → EReal) (⟨5000 * t.val + p.val, hr⟩ : Fin 50000) :=
    funext fun k => featBlock0 V c t p k _ rfl
  have h2 := colBlock0 V c t p (⟨5000 * t.val + p.val, hr⟩ : Fin 50000) rfl
  have h3 : Gcn.mat (iblk0 V c 2 t : Vec Ideal S128x128 .f32) = Gcn.mat (V c main_arg1 : S128x128.Idx → EReal) :=
    funext fun k => funext fun q' => weightBlock0 V c t k q'
  have h4 : Gcn.vec (iblk0 V c 3 t : Vec Ideal S128 .f32) = Gcn.vec (V c main_arg2 : S128.Idx → EReal) :=
    funext fun q' => biasBlock0 V c t q'
  rw [h1, h2, h3, h4]

/-- An index of the result array is in point t's block iff each coordinate is in the block's range. -/
theorem memBlock0 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v27).slice (win0_4.rect t)).set ↔ _
  rw [View.set_slice_whole, Rect.mem_set_unit]
  exact Iff.rfl

/-- Every row belongs to the block of the point that is its quotient by 5000. -/
theorem cover0 (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_4 _, ?_⟩
  rw [memBlock0]
  obtain ⟨-, -, -, -, -, -, -, e0, e1⟩ := blockIdx0 ⟨(i 0).val / 5000, by rw [hN]; omega⟩
  intro a
  match a with
  | ⟨0, _⟩ => show win0_4.index _ (0 : Fin 2) * 5000 ≤ (i 0).val ∧ (i 0).val < win0_4.index _ (0 : Fin 2) * 5000 + 5000; rw [e0]; show (i 0).val / 5000 * 5000 ≤ _ ∧ _ < (i 0).val / 5000 * 5000 + 5000; omega
  | ⟨1, _⟩ => show win0_4.index _ (1 : Fin 2) * 128 ≤ (i 1).val ∧ (i 1).val < win0_4.index _ (1 : Fin 2) * 128 + 128; rw [e1]; omega

/-- After the region the result array holds the layer on the whole array. -/
theorem final0 (c : Dev nD) : (dat0 V c).arrAt 4 cfg0.N = layer0 V c :=
  (dat0 V c).arrAt_eq_of_cover 4 (layer0 V c) (fun t _ => flushed0 V c t) (cover0)

end Cert.KernelIdeal.Hand

end
-- ==== Proof.ChainA.lean ====
/-
  The first layer, read off the kernel program's segments.

  The first host stretch leaves the two degree columns and the aggregate of the input features, each a shared host
  function of the arguments; region 0 then leaves the dense layer of those, so the first layer's output is one nested
  function of the arguments.  The degree columns survive the region: one is not among its arrays, the other is an
  input window, which a region leaves as it found it.
-/
import proofs.«180076_j1056561954979_2_alg».proof.Proof.ChainArgs
import proofs.«180076_j1056561954979_2_alg».proof.Proof.HostFns
import proofs.«180076_j1056561954979_2_alg».proof.Proof.Region0
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The argument arrays of core `c` as launched. -/
abbrev arg (b : Ref sig .tc) : Buf (Elt Ideal) ((c : Thread nD τ).loc b) := m ((c : Thread nD τ).loc b)

/-! ## After the first host stretch -/

/-- The out-degree scale column. -/
theorem W1_dor : W1 m ρ c (Proc.devRef .tc main_v12) = degRsqrtCol (arg m c main_arg7) := by
  show StableHlo.after hostOps0 (W0 m ρ c) (Proc.devRef .tc main_v12) = _
  dsimp only [hostOps0]
  after_results_simp
  rfl

/-- The in-degree scale column. -/
theorem W1_dis : W1 m ρ c (Proc.devRef .tc main_v14) = degRsqrtCol (arg m c main_arg8) := by
  show StableHlo.after hostOps0 (W0 m ρ c) (Proc.devRef .tc main_v14) = _
  dsimp only [hostOps0]
  after_results_simp
  rfl

/-- The first aggregate: of the input features. -/
theorem W1_agg : W1 m ρ c (Proc.devRef .tc main_v26)
    = aggregate (arg m c main_arg0) (degRsqrtCol (arg m c main_arg7)) (arg m c main_arg7) (arg m c main_arg8) := by
  show StableHlo.after hostOps0 (W0 m ρ c) (Proc.devRef .tc main_v26) = _
  dsimp only [hostOps0]
  after_results_simp
  rfl

/-- The first layer's output, as a function of the arguments. -/
def layerOne : S50000x128.Idx → EReal :=
  Gcn.dense (aggregate (arg m c main_arg0) (degRsqrtCol (arg m c main_arg7)) (arg m c main_arg7) (arg m c main_arg8))
    (degRsqrtCol (arg m c main_arg8)) (Gcn.mat (arg m c main_arg1)) (Gcn.vec (arg m c main_arg2))

/-! ## After region 0 -/

theorem W2_layer : W2 m ρ c (Proc.devRef .tc main_v27) = layerOne m c := by
  refine (W2_arr m ρ c 4).trans ?_
  rw [final0 (V1 m ρ) c]
  show Gcn.dense (W1 m ρ c (Proc.devRef .tc main_v26)) (W1 m ρ c (Proc.devRef .tc main_v14))
      (Gcn.mat (W1 m ρ c (Proc.devRef .tc main_arg1))) (Gcn.vec (W1 m ρ c (Proc.devRef .tc main_arg2))) = _
  rw [W1_agg, W1_dis, W1_main_arg1, W1_main_arg2]
  rfl

theorem W2_dor : W2 m ρ c (Proc.devRef .tc main_v12) = degRsqrtCol (arg m c main_arg7) :=
  (W2_of_ne m ρ c main_v12 (by decide)).trans (W1_dor m ρ c)

/-- The in-degree column is an input window of region 0: the region leaves it as it found it. -/
theorem W2_dis : W2 m ρ c (Proc.devRef .tc main_v14) = degRsqrtCol (arg m c main_arg8) :=
  ((W2_arr m ρ c 1).trans (((dat0 (V1 m ρ) c).arrAt_in 1 rfl _).trans (A_eq0 (V1 m ρ) c 1))).trans (W1_dis m ρ c)

end Cert.KernelIdeal.Hand

end
-- ==== Proof.Region1.lean ====
/-
  Region 1: the dense half of a graph-convolution layer, block by block, is the layer on the whole array.

  The grid has ten points; point t stages rows 5000·t … 5000·t + 4999 of the aggregated features and of the
  in-degree column, the whole weight matrix and the whole bias, and writes back the same rows of the result.  Row p of
  what point t writes is the layer's row function of row 5000·t + p of the operands, so every written block is the
  block of one whole-array function; the ten blocks cover all 50000 rows, so the result array ends holding that function.
-/
import proofs.«180076_j1056561954979_2_alg».proof.Proof.Gen.KernelIdeal.Frame
import proofs.«180076_j1056561954979_2_alg».proof.Proof.DensePay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero2_1 : (![0, 0] : Fin 2 → Nat) = fun _ => 0 := funext fun a => by fin_cases a <;> rfl
theorem zero1_1 : (![0] : Fin 1 → Nat) = fun _ => 0 := funext fun a => by fin_cases a; rfl

/-- The block indices over the grid: the row-blocked windows move with the point, the weight and bias stay. -/
theorem blockIdx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- Row p, column k of the feature block at point t is row 5000·t + p of the array. -/
theorem featBlock1 (c : Dev nD) (t : Fin cfg1.N) (p : Fin 5000) (k : Fin 128) (r : Fin 50000) (hr : r.val = 5000 * t.val + p.val) :
    (iblk1 V c 0 t : Vec Ideal S5000x128 .f32) (ix2 p k) = (V c main_v39 : S50000x128.Idx → EReal) (ix2 r k) := by
  obtain ⟨e0, e1, -⟩ := blockIdx1 t
  unfold iblk1
  rw [View.read_apply]
  show V c main_v39 _ = V c main_v39 _
  refine congrArg (V c main_v39) (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- Row p of the column block at point t is row 5000·t + p of the column. -/
theorem colBlock1 (c : Dev nD) (t : Fin cfg1.N) (p : Fin 5000) (r : Fin 50000) (hr : r.val = 5000 * t.val + p.val) :
    (iblk1 V c 1 t : Vec Ideal S5000x1 .f32) (ix2 p (0 : Fin 1)) = (V c main_v14 : S50000x1.Idx → EReal) (ix2 r (0 : Fin 1)) := by
  obtain ⟨-, -, e0, e1, -⟩ := blockIdx1 t
  unfold iblk1
  rw [View.read_apply]
  show V c main_v14 _ = V c main_v14 _
  refine congrArg (V c main_v14) (funext fun a => Fin.ext ?_)
  match a with
  | ⟨0, _⟩ => show win1_1.index t (0 : Fin 2) * 5000 + 1 * p.val = r.val; rw [e0, hr]; omega
  | ⟨1, _⟩ => show win1_1.index t (1 : Fin 2) * 1 + 1 * 0 = 0; rw [e1]

/-- The weight's one block is the weight. -/
theorem weightBlock1 (c : Dev nD) (t : Fin cfg1.N) (k q : Fin 128) :
    (iblk1 V c 2 t : Vec Ideal S128x128 .f32) (ix2 k q) = (V c main_arg3 : S128x128.Idx → EReal) (ix2 k q) := by
  obtain ⟨-, -, -, -, e0, e1, -⟩ := blockIdx1 t
  unfold iblk1
  rw [View.read_apply]
  show V c main_arg3 _ = V c main_arg3 _
  refine congrArg (V c main_arg3) (funext fun a => Fin.ext ?_)
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- The bias's one block is the bias. -/
theorem biasBlock1 (c : Dev nD) (t : Fin cfg1.N) (q : Fin 128) :
    (iblk1 V c 3 t : Vec Ideal S128 .f32) (ix1 q) = (V c main_arg4 : S128.Idx → EReal) (ix1 q) := by
  obtain ⟨-, -, -, -, -, -, e0, -⟩ := blockIdx1 t
  unfold iblk1
  rw [View.read_apply]
  show V c main_arg4 _ = V c main_arg4 _
  refine congrArg (V c main_arg4) (funext fun a => Fin.ext ?_)
  match a with
  | ⟨0, _⟩ => show win1_3.index t (0 : Fin 1) * 128 + 1 * q.val = q.val; rw [e0]; omega

/-- The layer on the whole array, of the operands as the region finds them. -/
abbrev layer1 (c : Dev nD) : S50000x128.Idx → EReal :=
  Gcn.dense (V c main_v39 : S50000x128.Idx → EReal) (V c main_v14 : S50000x1.Idx → EReal)
    (Gcn.mat (V c main_arg3 : S128x128.Idx → EReal)) (Gcn.vec (V c main_arg4 : S128.Idx → EReal))

/-- What point t writes back is block t of the layer on the whole array. -/
theorem flushed1 (c : Dev nD) (t : Fin cfg1.N) :
    (dat1 V c).flushed 4 t = ((cfg1.win 4).blk t).view.read (Elt Ideal) (layer1 V c) := by
  show (cfg1.win 4).cut (grid1.coords t) ((dat1 V c).after 4 t) = _
  rw [after1_4]
  unfold out1_4
  rw [View.canon_unit_zero zero2_1]
  simp only [View.ld_unit_zero (S := S5000x128) zero2_1, View.ld_unit_zero (S := S5000x1) zero2_1,
    View.ld_unit_zero (S := S128x128) zero2_1, View.ld_unit_zero (S := S128) zero1_1]
  obtain ⟨-, -, -, -, -, -, -, e0, e1⟩ := blockIdx1 t
  funext j
  obtain ⟨p, q, rfl⟩ : ∃ (p : Fin 5000) (q : Fin 128), j = ix2 p q := ⟨j 0, j 1, eq_ix2 j⟩
  have hr : 5000 * t.val + p.val < 50000 := by
    have ht : t.val < 10 := lt_of_lt_of_eq t.isLt (show cfg1.N = 10 from N_1)
    have := p.isLt; omega
  have hemb : ((cfg1.win 4).blk t).view.emb (ix2 p q) = ix2 (⟨5000 * t.val + p.val, hr⟩ : Fin 50000) q := by
    funext a; apply Fin.ext
    match a with
    | ⟨0, _⟩ => show win1_4.index t (0 : Fin 2) * 5000 + 1 * p.val = 5000 * t.val + p.val; rw [e0]; omega
    | ⟨1, _⟩ => show win1_4.index t (1 : Fin 2) * 128 + 1 * q.val = q.val; rw [e1]; omega
  show k1_pay1 (iblk1 V c 1 t) (iblk1 V c 0 t) (iblk1 V c 2 t) (iblk1 V c 3 t) (ix2 p q)
    = layer1 V c (((cfg1.win 4).blk t).view.emb (ix2 p q))
  rw [hemb, dense_pay1]
  show Gcn.denseRow _ _ _ _ q = Gcn.denseRow _ _ _ _ q
  have h1 : Gcn.rowOf (iblk1 V c 0 t : Vec Ideal S5000x128 .f32) p
      = Gcn.rowOf (V c main_v39 : S50000x128.Idx → EReal) (⟨5000 * t.val + p.val, hr⟩ : Fin 50000) :=
    funext fun k => featBlock1 V c t p k _ rfl
  have h2 := colBlock1 V c t p (⟨5000 * t.val + p.val, hr⟩ : Fin 50000) rfl
  have h3 : Gcn.mat (iblk1 V c 2 t : Vec Ideal S128x128 .f32) = Gcn.mat (V c main_arg3 : S128x128.Idx → EReal) :=
    funext fun k => funext fun q' => weightBlock1 V c t k q'
  have h4 : Gcn.vec (iblk1 V c 3 t : Vec Ideal S128 .f32) = Gcn.vec (V c main_arg4 : S128.Idx → EReal) :=
    funext fun q' => biasBlock1 V c t q'
  rw [h1, h2, h3, h4]

/-- An index of the result array is in point t's block iff each coordinate is in the block's range. -/
theorem memBlock1 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v40).slice (win1_4.rect t)).set ↔ _
  rw [View.set_slice_whole, Rect.mem_set_unit]
  exact Iff.rfl

/-- Every row belongs to the block of the point that is its quotient by 5000. -/
theorem cover1 (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_4 _, ?_⟩
  rw [memBlock1]
  obtain ⟨-, -, -, -, -, -, -, e0, e1⟩ := blockIdx1 ⟨(i 0).val / 5000, by rw [hN]; omega⟩
  intro a
  match a with
  | ⟨0, _⟩ => show win1_4.index _ (0 : Fin 2) * 5000 ≤ (i 0).val ∧ (i 0).val < win1_4.index _ (0 : Fin 2) * 5000 + 5000; rw [e0]; show (i 0).val / 5000 * 5000 ≤ _ ∧ _ < (i 0).val / 5000 * 5000 + 5000; omega
  | ⟨1, _⟩ => show win1_4.index _ (1 : Fin 2) * 128 ≤ (i 1).val ∧ (i 1).val < win1_4.index _ (1 : Fin 2) * 128 + 128; rw [e1]; omega

/-- After the region the result array holds the layer on the whole array. -/
theorem final1 (c : Dev nD) : (dat1 V c).arrAt 4 cfg1.N = layer1 V c :=
  (dat1 V c).arrAt_eq_of_cover 4 (layer1 V c) (fun t _ => flushed1 V c t) (cover1)

end Cert.KernelIdeal.Hand

end
-- ==== Proof.ChainB.lean ====
/-
  The second layer, read off the kernel program's segments.

  The second host stretch aggregates the first layer's output with the same degree columns and edge lists, and
  region 1 leaves the dense layer of that aggregate with the second weight and bias.
-/
import proofs.«180076_j1056561954979_2_alg».proof.Proof.ChainA
import proofs.«180076_j1056561954979_2_alg».proof.Proof.Region1
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the second host stretch -/

/-- The second aggregate: of the first layer's output. -/
theorem W3_agg : W3 m ρ c (Proc.devRef .tc main_v39)
    = aggregate (layerOne m c) (degRsqrtCol (arg m c main_arg7)) (arg m c main_arg7) (arg m c main_arg8) := by
  show StableHlo.after hostOps1 (W2 m ρ c) (Proc.devRef .tc main_v39) = _
  dsimp only [hostOps1]
  after_results_simp
  rw [W2_layer, W2_dor, W2_main_arg7, W2_main_arg8]
  rfl

theorem W3_dis : W3 m ρ c (Proc.devRef .tc main_v14) = degRsqrtCol (arg m c main_arg8) :=
  (past_host% hostOps1 : W3 m ρ c (Proc.devRef .tc main_v14) = W2 m ρ c (Proc.devRef .tc main_v14)).trans (W2_dis m ρ c)

/-- The second layer's output, as a function of the arguments. -/
def layerTwo : S50000x128.Idx → EReal :=
  Gcn.dense (aggregate (layerOne m c) (degRsqrtCol (arg m c main_arg7)) (arg m c main_arg7) (arg m c main_arg8))
    (degRsqrtCol (arg m c main_arg8)) (Gcn.mat (arg m c main_arg3)) (Gcn.vec (arg m c main_arg4))

/-! ## After region 1 -/

theorem W4_layer : W4 m ρ c (Proc.devRef .tc main_v40) = layerTwo m c := by
  refine (W4_arr m ρ c 4).trans ?_
  rw [final1 (V3 m ρ) c]
  show Gcn.dense (W3 m ρ c (Proc.devRef .tc main_v39)) (W3 m ρ c (Proc.devRef .tc main_v14))
      (Gcn.mat (W3 m ρ c (Proc.devRef .tc main_arg3))) (Gcn.vec (W3 m ρ c (Proc.devRef .tc main_arg4))) = _
  rw [W3_agg, W3_dis, W3_main_arg3, W3_main_arg4]
  rfl

end Cert.KernelIdeal.Hand

end
-- ==== Proof.LibRowSum.lean ====
/-
  A sum along the rows of a matrix, read at an index, on the extended reals.

  A sum of an [a, b] array over its axis 1, from the neutral accumulator, has at i the value ∑ k, x (i, k): the
  index the reduction inserts coordinate k into at position 1 is (i, k).
-/
import Idealize.ShloMosaic.PureOps.Ideal.Laws
import Idealize.ShloMosaic.Lib.ValueIdx

noncomputable section

open scoped BigOperators

namespace Idealize.ShloMosaic.RowSum

open Idealize.ShloMosaic Idealize.ShloMosaic.ValueIdx

/-- The reduced index `i` with column `k` put back is (i, k). -/
theorem lift_row {a b : Nat} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A sum along the rows from the neutral accumulator, at row `i`: the sum of that row. -/
theorem rowSum_apply {a b : Nat} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] (⟨1, ![a]⟩ : Shape) src acc h hφ hacc (ix1 i) = ∑ k : Fin b, src (ix2 i k) := by
  refine (Ideal.multiReduction_add_single src acc h hφ hacc (ix1 i)).trans ?_
  show (∑ k : Fin b, src (h.lift (ix1 i) k)) = _
  exact Finset.sum_congr rfl fun k _ => congrArg src (lift_row h i k)

end Idealize.ShloMosaic.RowSum

end
-- ==== Proof.ProjPay.lean ====
/-
  The projection body on one block of 5000 rows.

  The body multiplies its block of layer outputs by the head of the projection weight and its block of input
  features by the tail, both into zero accumulators, adds the two products, and divides each row by the larger of its
  Euclidean norm (the square root of the row's sum of squares, kept as a column) and the floor 1e-12.  Read at row p
  and column q this is the row function `projRow` of rows p of the two blocks.
-/
import proofs.«180076_j1056561954979_2_alg».proof.Proof.Gen.KernelIdeal.Skeleton
import proofs.«180076_j1056561954979_2_alg».proof.Proof.RowSpec
import proofs.«180076_j1056561954979_2_alg».proof.Proof.LibPlainDot
import proofs.«180076_j1056561954979_2_alg».proof.Proof.LibKeepdims
import proofs.«180076_j1056561954979_2_alg».proof.Proof.LibRowSum
import Idealize.ShloMosaic.Lib.Pipeline.Value
import Idealize.ShloMosaic.Lib.ValueIdx

noncomputable section

open scoped BigOperators

namespace Cert.KernelIdeal.Hand

open Cert.KernelIdeal Cert.KernelIdeal.Gen Idealize.ShloMosaic Idealize.ShloMosaic.ValueIdx

/-- The body's two products contract a block's columns with a weight's rows and have no batch axis. -/
theorem dot_proj_plain : dot_S5000x128_S128x32_S5000x32_1_0_0_1_n_n = DotDims.plain 5000 128 32 :=
  PlainDot.eq_plain _ rfl rfl rfl rfl rfl rfl

/-- The sum of the two products, before normalisation. -/
def projSum (v0 : Vec Ideal S5000x128 .f32) (v3 : Vec Ideal S128x32 .f32) (v7 : Vec Ideal S5000x128 .f32)
    (v9 : Vec Ideal S128x32 .f32) : FVec Ideal S5000x32 .f32 :=
  addf
    (matmul dot_S5000x128_S128x32_S5000x32_1_0_0_1_n_n none
      (truncf .bf16 (shapeCast S5000x128 v0 shapeCasts_S5000x128_S5000x128) bitsLt_bf16_f32)
      (truncf .bf16 (shapeCast S128x32 v3 shapeCasts_S128x32_S128x32) bitsLt_bf16_f32)
      (constant S5000x32 .f32 0x00000000#32))
    (matmul dot_S5000x128_S128x32_S5000x32_1_0_0_1_n_n none
      (truncf .bf16 v7 bitsLt_bf16_f32)
      (truncf .bf16 (shapeCast S128x32 v9 shapeCasts_S128x32_S128x32) bitsLt_bf16_f32)
      (constant S5000x32 .f32 0x00000000#32))

/-- At (p, j) the sum of the two products is the unnormalised projection of rows p. -/
theorem projSum_apply (v0 : Vec Ideal S5000x128 .f32) (v3 : Vec Ideal S128x32 .f32) (v7 : Vec Ideal S5000x128 .f32)
    (v9 : Vec Ideal S128x32 .f32) (p : Fin 5000) (j : Fin 32) :
    projSum v0 v3 v7 v9 (ix2 p j) = Gcn.projRaw (Gcn.rowOf v0 p) (Gcn.rowOf v7 p) (Gcn.mat v3) (Gcn.mat v9) j := by
  unfold projSum Gcn.projRaw
  refine congrArg₂ (· + ·) ((PlainDot.matmul_zero_apply _ dot_proj_plain none _ _ p j).trans ?_)
    ((PlainDot.matmul_zero_apply _ dot_proj_plain none _ _ p j).trans ?_)
  · refine Finset.sum_congr rfl fun k _ => ?_
    show shapeCast S5000x128 v0 shapeCasts_S5000x128_S5000x128 (ix2 p k) * shapeCast S128x32 v3 shapeCasts_S128x32_S128x32 (ix2 k j) = _
    rw [shapeCast_self, shapeCast_self]
  · refine Finset.sum_congr rfl fun k _ => ?_
    show v7 (ix2 p k) * shapeCast S128x32 v9 shapeCasts_S128x32_S128x32 (ix2 k j) = _
    rw [shapeCast_self]

/-- The body's stored value in terms of the sum of the two products. -/
theorem proj_pay_eq (v0 : Vec Ideal S5000x128 .f32) (v3 : Vec Ideal S128x32 .f32) (v7 : Vec Ideal S5000x128 .f32)
    (v9 : Vec Ideal S128x32 .f32) :
    k2_pay1 (F := Ideal) v0 v3 v7 v9
      = divf (projSum v0 v3 v7 v9)
          (broadcastTo S5000x32
            (maximumf
              (sqrt (shapeCast S5000x1
                (multiReduction .add [1] S5000 (mulf (projSum v0 v3 v7 v9) (projSum v0 v3 v7 v9)) 0x00000000#32
                  reduces_S5000x32_S5000 (.inl rfl) rfl) shapeCasts_S5000_S5000x1))
              (broadcast S5000x1 (Scalar.ofBits (F := Ideal) .f32 0x2B8CBCCC#32)))
            broadcasts_S5000x1_S5000x32) := rfl

/-- The body at (p, q) of its block. -/
theorem proj_pay (v0 : Vec Ideal S5000x128 .f32) (v3 : Vec Ideal S128x32 .f32) (v7 : Vec Ideal S5000x128 .f32)
    (v9 : Vec Ideal S128x32 .f32) (p : Fin 5000) (q : Fin 32) :
    k2_pay1 (F := Ideal) v0 v3 v7 v9 (ix2 p q)
      = Gcn.projRow (Ideal.ofBits .f32 0x2B8CBCCC#32) (Gcn.rowOf v0 p) (Gcn.rowOf v7 p) (Gcn.mat v3) (Gcn.mat v9) q := by
  rw [proj_pay_eq]
  have hz : ∀ j : Fin 32, projSum v0 v3 v7 v9 (ix2 p j) = Gcn.projRaw (Gcn.rowOf v0 p) (Gcn.rowOf v7 p) (Gcn.mat v3) (Gcn.mat v9) j :=
    projSum_apply v0 v3 v7 v9 p
  generalize projSum v0 v3 v7 v9 = z at hz ⊢
  unfold Gcn.projRow Gcn.normFloor
  refine congrArg₂ Ideal.div (hz q) ?_
  refine (Keepdims.broadcastTo_a1_ab_apply _ _ p q).trans ?_
  refine congrArg₂ max (congrArg Ideal.sqrt ?_) rfl
  refine (Keepdims.shapeCast_a_a1_apply _ _ p 0).trans ?_
  refine (RowSum.rowSum_apply _ _ _ _ _ p).trans ?_
  refine Finset.sum_congr rfl fun j _ => ?_
  show z (ix2 p j) * z (ix2 p j) = _
  rw [hz j]

end Cert.KernelIdeal.Hand

end
-- ==== Proof.Region2.lean ====
/-
  Region 2: the normalised projection, block by block, is the projection on the whole array.

  The grid has ten points; point t stages rows 5000·t … 5000·t + 4999 of the second layer's output and of the input
  features, the two whole 128×32 weight halves, and writes back the same rows of the result.  Row p of what point t
  writes is the projection's row function of rows 5000·t + p of the two operands, so every written block is the block
  of one whole-array function, and the ten blocks cover all 50000 rows.
-/
import proofs.«180076_j1056561954979_2_alg».proof.Proof.Gen.KernelIdeal.Frame
import proofs.«180076_j1056561954979_2_alg».proof.Proof.ProjPay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero2_2 : (![0, 0] : Fin 2 → Nat) = fun _ => 0 := funext fun a => by fin_cases a <;> rfl

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = 0 ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = t.val ∧ win2_4.index t (1 : Fin 2) = 0 :=
  (by decide +kernel : ∀ t : Fin grid2.N, _)

/-- Row p of the layer-output block at point t is row 5000·t + p of the array. -/
theorem layerBlock2 (c : Dev nD) (t : Fin cfg2.N) (p : Fin 5000) (k : Fin 128) (r : Fin 50000) (hr : r.val = 5000 * t.val + p.val) :
    (iblk2 V c 0 t : Vec Ideal S5000x128 .f32) (ix2 p k) = (V c main_v40 : S50000x128.Idx → EReal) (ix2 r k) := by
  obtain ⟨e0, e1⟩ := idx2_0 t
  unfold iblk2
  rw [View.read_apply]
  show V c main_v40 _ = V c main_v40 _
  refine congrArg (V c main_v40) (funext fun a => Fin.ext ?_)
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- Row p of the input-feature block at point t is row 5000·t + p of the array. -/
theorem featBlock2 (c : Dev nD) (t : Fin cfg2.N) (p : Fin 5000) (k : Fin 128) (r : Fin 50000) (hr : r.val = 5000 * t.val + p.val) :
    (iblk2 V c 1 t : Vec Ideal S5000x128 .f32) (ix2 p k) = (V c main_arg0 : S50000x128.Idx → EReal) (ix2 r k) := by
  obtain ⟨e0, e1⟩ := idx2_1 t
  unfold iblk2
  rw [View.read_apply]
  show V c main_arg0 _ = V c main_arg0 _
  refine congrArg (V c main_arg0) (funext fun a => Fin.ext ?_)
  match a with
  | ⟨0, _⟩ => show win2_1.index t (0 : Fin 2) * 5000 + 1 * p.val = r.val; rw [e0, hr]; omega
  | ⟨1, _⟩ => show win2_1.index t (1 : Fin 2) * 128 + 1 * k.val = k.val; rw [e1]; omega

/-- The weight head's one block is the weight head. -/
theorem headBlock2 (c : Dev nD) (t : Fin cfg2.N) (k : Fin 128) (q : Fin 32) :
    (iblk2 V c 2 t : Vec Ideal S128x32 .f32) (ix2 k q) = (V c main_v41 : S128x32.Idx → EReal) (ix2 k q) := by
  obtain ⟨e0, e1⟩ := idx2_2 t
  unfold iblk2
  rw [View.read_apply]
  show V c main_v41 _ = V c main_v41 _
  refine congrArg (V c main_v41) (funext fun a => Fin.ext ?_)
  match a with
  | ⟨0, _⟩ => show win2_2.index t (0 : Fin 2) * 128 + 1 * k.val = k.val; rw [e0]; omega
  | ⟨1, _⟩ => show win2_2.index t (1 : Fin 2) * 32 + 1 * q.val = q.val; rw [e1]; omega

/-- The weight tail's one block is the weight tail. -/
theorem tailBlock2 (c : Dev nD) (t : Fin cfg2.N) (k : Fin 128) (q : Fin 32) :
    (iblk2 V c 3 t : Vec Ideal S128x32 .f32) (ix2 k q) = (V c main_v42 : S128x32.Idx → EReal) (ix2 k q) := by
  obtain ⟨e0, e1⟩ := idx2_3 t
  unfold iblk2
  rw [View.read_apply]
  show V c main_v42 _ = V c main_v42 _
  refine congrArg (V c main_v42) (funext fun a => Fin.ext ?_)
  match a with
  | ⟨0, _⟩ => show win2_3.index t (0 : Fin 2) * 128 + 1 * k.val = k.val; rw [e0]; omega
  | ⟨1, _⟩ => show win2_3.index t (1 : Fin 2) * 32 + 1 * q.val = q.val; rw [e1]; omega

/-- Row p, column q of point t's block of the result sits at row 5000·t + p of the array. -/
theorem emb2 (t : Fin cfg2.N) (p : Fin 5000) (q : Fin 32) (hr : 5000 * t.val + p.val < 50000) :
    ((cfg2.win 4).blk t).view.emb (ix2 p q) = ix2 (⟨5000 * t.val + p.val, hr⟩ : Fin 50000) q := by
  obtain ⟨e0, e1⟩ := idx2_4 t
  funext a; apply Fin.ext
  match a with
  | ⟨0, _⟩ => show win2_4.index t (0 : Fin 2) * 5000 + 1 * p.val = 5000 * t.val + p.val; rw [e0]; omega
  | ⟨1, _⟩ => show win2_4.index t (1 : Fin 2) * 32 + 1 * q.val = q.val; rw [e1]; omega

theorem rowBound2 (t : Fin cfg2.N) (p : Fin 5000) : 5000 * t.val + p.val < 50000 := by
  have ht : t.val < 10 := lt_of_lt_of_eq t.isLt (show cfg2.N = 10 from N_2)
  have := p.isLt; omega

/-- The projection on the whole array, of the operands as the region finds them. -/
abbrev projection2 (c : Dev nD) : S50000x32.Idx → EReal :=
  Gcn.proj (Ideal.ofBits .f32 0x2B8CBCCC#32) (V c main_v40 : S50000x128.Idx → EReal) (V c main_arg0 : S50000x128.Idx → EReal)
    (Gcn.mat (V c main_v41 : S128x32.Idx → EReal)) (Gcn.mat (V c main_v42 : S128x32.Idx → EReal))

/-- What point t writes back is block t of the projection on the whole array. -/
theorem flushed2 (c : Dev nD) (t : Fin cfg2.N) :
    (dat2 V c).flushed 4 t = ((cfg2.win 4).blk t).view.read (Elt Ideal) (projection2 V c) := by
  show (cfg2.win 4).cut (grid2.coords t) ((dat2 V c).after 4 t) = _
  rw [after2_4]
  unfold out2_4
  rw [View.canon_unit_zero zero2_2]
  simp only [View.ld_unit_zero (S := S5000x128) zero2_2, View.ld_unit_zero (S := S128x32) zero2_2]
  funext j
  obtain ⟨p, q, rfl⟩ : ∃ (p : Fin 5000) (q : Fin 32), j = ix2 p q := ⟨j 0, j 1, eq_ix2 j⟩
  show k2_pay1 (iblk2 V c 0 t) (iblk2 V c 2 t) (iblk2 V c 1 t) (iblk2 V c 3 t) (ix2 p q)
    = projection2 V c (((cfg2.win 4).blk t).view.emb (ix2 p q))
  rw [emb2 t p q (rowBound2 t p), proj_pay]
  show Gcn.projRow _ _ _ _ _ q = Gcn.projRow _ _ _ _ _ q
  have h1 : Gcn.rowOf (iblk2 V c 0 t : Vec Ideal S5000x128 .f32) p
      = Gcn.rowOf (V c main_v40 : S50000x128.Idx → EReal) (⟨5000 * t.val + p.val, rowBound2 t p⟩ : Fin 50000) :=
    funext fun k => layerBlock2 V c t p k _ rfl
  have h2 : Gcn.rowOf (iblk2 V c 1 t : Vec Ideal S5000x128 .f32) p
      = Gcn.rowOf (V c main_arg0 : S50000x128.Idx → EReal) (⟨5000 * t.val + p.val, rowBound2 t p⟩ : Fin 50000) :=
    funext fun k => featBlock2 V c t p k _ rfl
  have h3 : Gcn.mat (iblk2 V c 2 t : Vec Ideal S128x32 .f32) = Gcn.mat (V c main_v41 : S128x32.Idx → EReal) :=
    funext fun k => funext fun q' => headBlock2 V c t k q'
  have h4 : Gcn.mat (iblk2 V c 3 t : Vec Ideal S128x32 .f32) = Gcn.mat (V c main_v42 : S128x32.Idx → EReal) :=
    funext fun k => funext fun q' => tailBlock2 V c t k q'
  rw [h1, h2, h3, h4]

/-- An index of the result array is in point t's block iff each coordinate is in the block's range. -/
theorem memBlock2 (t : Fin cfg2.N) (i : S50000x32.Idx) :
    i ∈ ((cfg2.win 4).blk t).view.set ↔ ∀ a : Fin 2, win2_4.index t a * S5000x32.size a ≤ (i a).val ∧ (i a).val < win2_4.index t a * S5000x32.size a + S5000x32.size a := by
  show i ∈ ((View.whole main_v43).slice (win2_4.rect t)).set ↔ _
  rw [View.set_slice_whole, Rect.mem_set_unit]
  exact Iff.rfl

/-- Every row belongs to the block of the point that is its quotient by 5000. -/
theorem cover2 (i : S50000x32.Idx) : ∃ t : Fin cfg2.N, (cfg2.win 4).flush t = true ∧ i ∈ ((cfg2.win 4).blk t).view.set := by
  have hi0 : (i 0).val < 50000 := (i 0).isLt
  have hi1 : (i 1).val < 32 := (i 1).isLt
  have hN : cfg2.N = 10 := N_2
  refine ⟨⟨(i 0).val / 5000, by rw [hN]; omega⟩, flush2_4 _, ?_⟩
  rw [memBlock2]
  obtain ⟨e0, e1⟩ := idx2_4 ⟨(i 0).val / 5000, by rw [hN]; omega⟩
  intro a
  match a with
  | ⟨0, _⟩ =>
    show win2_4.index _ (0 : Fin 2) * 5000 ≤ (i 0).val ∧ (i 0).val < win2_4.index _ (0 : Fin 2) * 5000 + 5000
    rw [e0]; show (i 0).val / 5000 * 5000 ≤ _ ∧ _ < (i 0).val / 5000 * 5000 + 5000; omega
  | ⟨1, _⟩ =>
    show win2_4.index _ (1 : Fin 2) * 32 ≤ (i 1).val ∧ (i 1).val < win2_4.index _ (1 : Fin 2) * 32 + 32
    rw [e1]; omega

/-- After the region the result array holds the projection on the whole array. -/
theorem final2 (c : Dev nD) : (dat2 V c).arrAt 4 cfg2.N = projection2 V c :=
  (dat2 V c).arrAt_eq_of_cover 4 (projection2 V c) (fun t _ => flushed2 V c t) (cover2)

end Cert.KernelIdeal.Hand

end
-- ==== Proof.ChainC.lean ====
/-
  The node embedding, read off the kernel program's segments.

  The third host stretch cuts the projection weight into its first and last 128 rows; region 2 leaves the normalised
  projection of the second layer's output and the input features through those two halves.
-/
import proofs.«180076_j1056561954979_2_alg».proof.Proof.ChainB
import proofs.«180076_j1056561954979_2_alg».proof.Proof.Region2
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the third host stretch -/

theorem W5_layer : W5 m ρ c (Proc.devRef .tc main_v40) = layerTwo m c :=
  (past_host% hostOps2 : W5 m ρ c (Proc.devRef .tc main_v40) = W4 m ρ c (Proc.devRef .tc main_v40)).trans (W4_layer m ρ c)

theorem W5_head : W5 m ρ c (Proc.devRef .tc main_v41) = headW (arg m c main_arg5) := by
  show StableHlo.after hostOps2 (W4 m ρ c) (Proc.devRef .tc main_v41) = _
  dsimp only [hostOps2]
  after_results_simp
  rw [W4_main_arg5]
  rfl

theorem W5_tail : W5 m ρ c (Proc.devRef .tc main_v42) = tailW (arg m c main_arg5) := by
  show StableHlo.after hostOps2 (W4 m ρ c) (Proc.devRef .tc main_v42) = _
  dsimp only [hostOps2]
  after_results_simp
  rw [W4_main_arg5]
  rfl

/-- The normalised projection of every node, as a function of the arguments. -/
def embedding : S50000x32.Idx → EReal :=
  Gcn.proj (Ideal.ofBits .f32 0x2B8CBCCC#32) (layerTwo m c) (arg m c main_arg0)
    (Gcn.mat (headW (arg m c main_arg5))) (Gcn.mat (tailW (arg m c main_arg5)))

/-! ## After region 2 -/

theorem W6_emb : W6 m ρ c (Proc.devRef .tc main_v43) = embedding m c := by
  refine (W6_arr m ρ c 4).trans ?_
  rw [final2 (V5 m ρ) c]
  show Gcn.proj _ (W5 m ρ c (Proc.devRef .tc main_v40)) (W5 m ρ c (Proc.devRef .tc main_arg0))
      (Gcn.mat (W5 m ρ c (Proc.devRef .tc main_v41))) (Gcn.mat (W5 m ρ c (Proc.devRef .tc main_v42))) = _
  rw [W5_layer, W5_main_arg0, W5_head, W5_tail]
  rfl

end Cert.KernelIdeal.Hand

end
-- ==== Proof.ScorePay.lean ====
/-
  The translation-score body on one block of 4000 triples.

  The body scales each relation row down by the larger of its Euclidean norm and 1, adds it to the head row,
  subtracts a tail row, and stores the Euclidean norm of the difference as a 4000×1 column — once for the true tail and
  once for the corrupted one.  Read at row p this is the row function `scoreRow` of rows p of the three blocks.
-/
import proofs.«180076_j1056561954979_2_alg».proof.Proof.Gen.KernelIdeal.Skeleton
import proofs.«180076_j1056561954979_2_alg».proof.Proof.RowSpec
import proofs.«180076_j1056561954979_2_alg».proof.Proof.LibKeepdims
import proofs.«180076_j1056561954979_2_alg».proof.Proof.LibRowSum
import Idealize.ShloMosaic.Lib.Pipeline.Value
import Idealize.ShloMosaic.Lib.ValueIdx

noncomputable section

open scoped BigOperators

namespace Cert.KernelIdeal.Hand

open Cert.KernelIdeal Cert.KernelIdeal.Gen Idealize.ShloMosaic Idealize.ShloMosaic.ValueIdx

/-- The head row plus the scaled relation row, at (p, k). -/
theorem translated_apply (r h : Vec Ideal S4000x32 .f32) (p : Fin 4000) (k : Fin 32) :
    k3_pay1 (F := Ideal) r h (ix2 p k)
      = Gcn.rowOf h p k + Gcn.relRow (Ideal.ofBits .f32 0x3F800000#32) (Gcn.rowOf r p) k := by
  unfold k3_pay1 Gcn.relRow Gcn.normFloor
  dsimp only
  show shapeCast S4000x32 h shapeCasts_S4000x32_S4000x32 (ix2 p k)
      + Ideal.div (shapeCast S4000x32 r shapeCasts_S4000x32_S4000x32 (ix2 p k))
          (broadcastTo S4000x32
            (maximumf
              (sqrt (shapeCast S4000x1
                (multiReduction .add [1] S4000
                  (mulf (shapeCast S4000x32 r shapeCasts_S4000x32_S4000x32) (shapeCast S4000x32 r shapeCasts_S4000x32_S4000x32))
                  0x00000000#32 reduces_S4000x32_S4000 (.inl rfl) rfl) shapeCasts_S4000_S4000x1))
              (broadcast S4000x1 (Scalar.ofBits (F := Ideal) .f32 0x3F800000#32)))
            broadcasts_S4000x1_S4000x32 (ix2 p k)) = _
  rw [shapeCast_self, shapeCast_self]
  refine congrArg₂ (· + ·) rfl (congrArg₂ Ideal.div rfl ?_)
  refine (Keepdims.broadcastTo_a1_ab_apply _ _ p k).trans ?_
  refine congrArg₂ max (congrArg Ideal.sqrt ?_) rfl
  refine (Keepdims.shapeCast_a_a1_apply _ _ p 0).trans ?_
  exact RowSum.rowSum_apply _ _ _ _ _ p

/-- The norm of (head + scaled relation − tail), at row p: shared by the two stored columns. -/
theorem score_col_apply (r h t : Vec Ideal S4000x32 .f32) (p : Fin 4000) (u : Fin 1) :
    (sqrt (shapeCast S4000x1
      (multiReduction .add [1] S4000
        (mulf (subf (k3_pay1 (F := Ideal) r h) (shapeCast S4000x32 t shapeCasts_S4000x32_S4000x32))
              (subf (k3_pay1 (F := Ideal) r h) (shapeCast S4000x32 t shapeCasts_S4000x32_S4000x32)))
        0x00000000#32 reduces_S4000x32_S4000 (.inl rfl) rfl) shapeCasts_S4000_S4000x1) : FVec Ideal S4000x1 .f32) (ix2 p u)
      = Gcn.scoreRow (Ideal.ofBits .f32 0x3F800000#32) (Gcn.rowOf h p) (Gcn.rowOf r p) (Gcn.rowOf t p) := by
  unfold Gcn.scoreRow
  refine congrArg Ideal.sqrt ?_
  refine (Keepdims.shapeCast_a_a1_apply _ _ p u).trans ?_
  refine (RowSum.rowSum_apply _ _ _ _ _ p).trans ?_
  refine Finset.sum_congr rfl fun k _ => ?_
  show (k3_pay1 (F := Ideal) r h (ix2 p k) - shapeCast S4000x32 t shapeCasts_S4000x32_S4000x32 (ix2 p k))
      * (k3_pay1 (F := Ideal) r h (ix2 p k) - shapeCast S4000x32 t shapeCasts_S4000x32_S4000x32 (ix2 p k)) = _
  rw [shapeCast_self, translated_apply]

/-- The stored column for the true tails, at row p. -/
theorem score_pay_pos (r h t : Vec Ideal S4000x32 .f32) (p : Fin 4000) (u : Fin 1) :
    k3_pay2 (F := Ideal) r h t (ix2 p u)
      = Gcn.scoreRow (Ideal.ofBits .f32 0x3F800000#32) (Gcn.rowOf h p) (Gcn.rowOf r p) (Gcn.rowOf t p) :=
  score_col_apply r h t p u

/-- The stored column for the corrupted tails, at row p. -/
theorem score_pay_neg (r h t : Vec Ideal S4000x32 .f32) (p : Fin 4000) (u : Fin 1) :
    k3_pay3 (F := Ideal) r h t (ix2 p u)
      = Gcn.scoreRow (Ideal.ofBits .f32 0x3F800000#32) (Gcn.rowOf h p) (Gcn.rowOf r p) (Gcn.rowOf t p) :=
  score_col_apply r h t p u

end Cert.KernelIdeal.Hand

end
-- ==== Proof.Region3.lean ====
/-
  Region 3: the translation scores, block by block, are the scores of all 200000 triples.

  The grid has fifty points; point t stages rows 4000·t … 4000·t + 3999 of the gathered head rows, relation rows,
  true-tail rows and corrupted-tail rows, and writes back the same rows of the two score columns.  Row p of what
  point t writes is the score's row function of rows 4000·t + p of the operands, so every written block is the block
  of one whole-array function, and the fifty blocks cover all 200000 rows of each column.
-/
import proofs.«180076_j1056561954979_2_alg».proof.Proof.Gen.KernelIdeal.Frame
import proofs.«180076_j1056561954979_2_alg».proof.Proof.ScorePay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero2_3 : (![0, 0] : Fin 2 → Nat) = fun _ => 0 := funext fun a => by fin_cases a <;> rfl

theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = t.val ∧ win3_1.index t (1 : Fin 2) = 0 :=
  (by decide +kernel : ∀ t : Fin grid3.N, _)
theorem idx3_2 : ∀ t : Fin cfg3.N, win3_2.index t (0 : Fin 2) = t.val ∧ win3_2.index t (1 : Fin 2) = 0 :=
  (by decide +kernel : ∀ t : Fin grid3.N, _)
theorem idx3_3 : ∀ t : Fin cfg3.N, win3_3.index t (0 : Fin 2) = t.val ∧ win3_3.index t (1 : Fin 2) = 0 :=
  (by decide +kernel : ∀ t : Fin grid3.N, _)
theorem idx3_4 : ∀ t : Fin cfg3.N, win3_4.index t (0 : Fin 2) = t.val ∧ win3_4.index t (1 : Fin 2) = 0 :=
  (by decide +kernel : ∀ t : Fin grid3.N, _)
theorem idx3_5 : ∀ t : Fin cfg3.N, win3_5.index t (0 : Fin 2) = t.val ∧ win3_5.index t (1 : Fin 2) = 0 :=
  (by decide +kernel : ∀ t : Fin grid3.N, _)

/-- Row p of the head block at point t is row 4000·t + p of the gathered heads. -/
theorem headBlock3 (c : Dev nD) (t : Fin cfg3.N) (p : Fin 4000) (k : Fin 32) (r : Fin 200000) (hr : r.val = 4000 * t.val + p.val) :
    (iblk3 V c 0 t : Vec Ideal S4000x32 .f32) (ix2 p k) = (V c main_v50 : S200000x32.Idx → EReal) (ix2 r k) := by
  obtain ⟨e0, e1⟩ := idx3_0 t
  unfold iblk3
  rw [View.read_apply]
  show V c main_v50 _ = V c main_v50 _
  refine congrArg (V c main_v50) (funext fun a => Fin.ext ?_)
  match a with
  | ⟨0, _⟩ => show win3_0.index t (0 : Fin 2) * 4000 + 1 * p.val = r.val; rw [e0, hr]; omega
  | ⟨1, _⟩ => show win3_0.index t (1 : Fin 2) * 32 + 1 * k.val = k.val; rw [e1]; omega

/-- Row p of the relation block at point t is row 4000·t + p of the gathered relations. -/
theorem relBlock3 (c : Dev nD) (t : Fin cfg3.N) (p : Fin 4000) (k : Fin 32) (r : Fin 200000) (hr : r.val = 4000 * t.val + p.val) :
    (iblk3 V c 1 t : Vec Ideal S4000x32 .f32) (ix2 p k) = (V c main_v71 : S200000x32.Idx → EReal) (ix2 r k) := by
  obtain ⟨e0, e1⟩ := idx3_1 t
  unfold iblk3
  rw [View.read_apply]
  show V c main_v71 _ = V c main_v71 _
  refine congrArg (V c main_v71) (funext fun a => Fin.ext ?_)
  match a with
  | ⟨0, _⟩ => show win3_1.index t (0 : Fin 2) * 4000 + 1 * p.val = r.val; rw [e0, hr]; omega
  | ⟨1, _⟩ => show win3_1.index t (1 : Fin 2) * 32 + 1 * k.val = k.val; rw [e1]; omega

/-- Row p of the tail block at point t is row 4000·t + p of the gathered tails. -/
theorem tailBlock3 (c : Dev nD) (t : Fin cfg3.N) (p : Fin 4000) (k : Fin 32) (r : Fin 200000) (hr : r.val = 4000 * t.val + p.val) :
    (iblk3 V c 2 t : Vec Ideal S4000x32 .f32) (ix2 p k) = (V c main_v57 : S200000x32.Idx → EReal) (ix2 r k) := by
  obtain ⟨e0, e1⟩ := idx3_2 t
  unfold iblk3
  rw [View.read_apply]
  show V c main_v57 _ = V c main_v57 _
  refine congrArg (V c main_v57) (funext fun a => Fin.ext ?_)
  match a with
  | ⟨0, _⟩ => show win3_2.index t (0 : Fin 2) * 4000 + 1 * p.val = r.val; rw [e0, hr]; omega
  | ⟨1, _⟩ => show win3_2.index t (1 : Fin 2) * 32 + 1 * k.val = k.val; rw [e1]; omega

/-- Row p of the corrupted-tail block at point t is row 4000·t + p of the gathered corrupted tails. -/
theorem negBlock3 (c : Dev nD) (t : Fin cfg3.N) (p : Fin 4000) (k : Fin 32) (r : Fin 200000) (hr : r.val = 4000 * t.val + p.val) :
    (iblk3 V c 3 t : Vec Ideal S4000x32 .f32) (ix2 p k) = (V c main_v64 : S200000x32.Idx → EReal) (ix2 r k) := by
  obtain ⟨e0, e1⟩ := idx3_3 t
  unfold iblk3
  rw [View.read_apply]
  show V c main_v64 _ = V c main_v64 _
  refine congrArg (V c main_v64) (funext fun a => Fin.ext ?_)
  match a with
  | ⟨0, _⟩ => show win3_3.index t (0 : Fin 2) * 4000 + 1 * p.val = r.val; rw [e0, hr]; omega
  | ⟨1, _⟩ => show win3_3.index t (1 : Fin 2) * 32 + 1 * k.val = k.val; rw [e1]; omega

/-- Row p, column q of point t's block of the result sits at row 4000·t + p of the array. -/
theorem emb3_pos (t : Fin cfg3.N) (p : Fin 4000) (q : Fin 1) (hr : 4000 * t.val + p.val < 200000) :
    ((cfg3.win 4).blk t).view.emb (ix2 p q) = ix2 (⟨4000 * t.val + p.val, hr⟩ : Fin 200000) q := by
  obtain ⟨e0, e1⟩ := idx3_4 t
  funext a; apply Fin.ext
  match a with
  | ⟨0, _⟩ => show win3_4.index t (0 : Fin 2) * 4000 + 1 * p.val = 4000 * t.val + p.val; rw [e0]; omega
  | ⟨1, _⟩ => show win3_4.index t (1 : Fin 2) * 1 + 1 * q.val = q.val; rw [e1]; omega

theorem rowBound3_pos (t : Fin cfg3.N) (p : Fin 4000) : 4000 * t.val + p.val < 200000 := by
  have ht : t.val < 50 := lt_of_lt_of_eq t.isLt (show cfg3.N = 50 from N_3)
  have := p.isLt; omega

/-- Row p, column q of point t's block of the result sits at row 4000·t + p of the array. -/
theorem emb3_neg (t : Fin cfg3.N) (p : Fin 4000) (q : Fin 1) (hr : 4000 * t.val + p.val < 200000) :
    ((cfg3.win 5).blk t).view.emb (ix2 p q) = ix2 (⟨4000 * t.val + p.val, hr⟩ : Fin 200000) q := by
  obtain ⟨e0, e1⟩ := idx3_5 t
  funext a; apply Fin.ext
  match a with
  | ⟨0, _⟩ => show win3_5.index t (0 : Fin 2) * 4000 + 1 * p.val = 4000 * t.val + p.val; rw [e0]; omega
  | ⟨1, _⟩ => show win3_5.index t (1 : Fin 2) * 1 + 1 * q.val = q.val; rw [e1]; omega

theorem rowBound3_neg (t : Fin cfg3.N) (p : Fin 4000) : 4000 * t.val + p.val < 200000 := by
  have ht : t.val < 50 := lt_of_lt_of_eq t.isLt (show cfg3.N = 50 from N_3)
  have := p.isLt; omega

/-- The scores of all triples against their true tails, of the operands as the region finds them. -/
abbrev scores3_pos (c : Dev nD) : S200000x1.Idx → EReal :=
  Gcn.score (Ideal.ofBits .f32 0x3F800000#32) (V c main_v50 : S200000x32.Idx → EReal) (V c main_v71 : S200000x32.Idx → EReal)
    (V c main_v57 : S200000x32.Idx → EReal)

/-- The scores of all triples against their corrupted tails. -/
abbrev scores3_neg (c : Dev nD) : S200000x1.Idx → EReal :=
  Gcn.score (Ideal.ofBits .f32 0x3F800000#32) (V c main_v50 : S200000x32.Idx → EReal) (V c main_v71 : S200000x32.Idx → EReal)
    (V c main_v64 : S200000x32.Idx → EReal)

/-- What point t writes back into the true-tail column is block t of the scores on the whole array. -/
theorem flushed3_pos (c : Dev nD) (t : Fin cfg3.N) :
    (dat3 V c).flushed 4 t = ((cfg3.win 4).blk t).view.read (Elt Ideal) (scores3_pos V c) := by
  show (cfg3.win 4).cut (grid3.coords t) ((dat3 V c).after 4 t) = _
  rw [after3_4]
  unfold out3_4
  rw [View.canon_unit_zero zero2_3]
  simp only [View.ld_unit_zero (S := S4000x32) zero2_3]
  funext j
  obtain ⟨p, u, rfl⟩ : ∃ (p : Fin 4000) (u : Fin 1), j = ix2 p u := ⟨j 0, j 1, eq_ix2 j⟩
  show k3_pay2 (iblk3 V c 1 t) (iblk3 V c 0 t) (iblk3 V c 2 t) (ix2 p u)
    = scores3_pos V c (((cfg3.win 4).blk t).view.emb (ix2 p u))
  rw [emb3_pos t p u (rowBound3_pos t p), score_pay_pos]
  show Gcn.scoreRow _ _ _ _ = Gcn.scoreRow _ _ _ _
  have h1 : Gcn.rowOf (iblk3 V c 0 t : Vec Ideal S4000x32 .f32) p
      = Gcn.rowOf (V c main_v50 : S200000x32.Idx → EReal) (⟨4000 * t.val + p.val, rowBound3_pos t p⟩ : Fin 200000) :=
    funext fun k => headBlock3 V c t p k _ rfl
  have h2 : Gcn.rowOf (iblk3 V c 1 t : Vec Ideal S4000x32 .f32) p
      = Gcn.rowOf (V c main_v71 : S200000x32.Idx → EReal) (⟨4000 * t.val + p.val, rowBound3_pos t p⟩ : Fin 200000) :=
    funext fun k => relBlock3 V c t p k _ rfl
  have h3 : Gcn.rowOf (iblk3 V c 2 t : Vec Ideal S4000x32 .f32) p
      = Gcn.rowOf (V c main_v57 : S200000x32.Idx → EReal) (⟨4000 * t.val + p.val, rowBound3_pos t p⟩ : Fin 200000) :=
    funext fun k => tailBlock3 V c t p k _ rfl
  rw [h1, h2, h3]

/-- What point t writes back into the corrupted-tail column is block t of the scores on the whole array. -/
theorem flushed3_neg (c : Dev nD) (t : Fin cfg3.N) :
    (dat3 V c).flushed 5 t = ((cfg3.win 5).blk t).view.read (Elt Ideal) (scores3_neg V c) := by
  show (cfg3.win 5).cut (grid3.coords t) ((dat3 V c).after 5 t) = _
  rw [after3_5]
  unfold out3_5
  rw [View.canon_unit_zero zero2_3]
  simp only [View.ld_unit_zero (S := S4000x32) zero2_3]
  funext j
  obtain ⟨p, u, rfl⟩ : ∃ (p : Fin 4000) (u : Fin 1), j = ix2 p u := ⟨j 0, j 1, eq_ix2 j⟩
  show k3_pay3 (iblk3 V c 1 t) (iblk3 V c 0 t) (iblk3 V c 3 t) (ix2 p u)
    = scores3_neg V c (((cfg3.win 5).blk t).view.emb (ix2 p u))
  rw [emb3_neg t p u (rowBound3_neg t p), score_pay_neg]
  show Gcn.scoreRow _ _ _ _ = Gcn.scoreRow _ _ _ _
  have h1 : Gcn.rowOf (iblk3 V c 0 t : Vec Ideal S4000x32 .f32) p
      = Gcn.rowOf (V c main_v50 : S200000x32.Idx → EReal) (⟨4000 * t.val + p.val, rowBound3_neg t p⟩ : Fin 200000) :=
    funext fun k => headBlock3 V c t p k _ rfl
  have h2 : Gcn.rowOf (iblk3 V c 1 t : Vec Ideal S4000x32 .f32) p
      = Gcn.rowOf (V c main_v71 : S200000x32.Idx → EReal) (⟨4000 * t.val + p.val, rowBound3_neg t p⟩ : Fin 200000) :=
    funext fun k => relBlock3 V c t p k _ rfl
  have h3 : Gcn.rowOf (iblk3 V c 3 t : Vec Ideal S4000x32 .f32) p
      = Gcn.rowOf (V c main_v64 : S200000x32.Idx → EReal) (⟨4000 * t.val + p.val, rowBound3_neg t p⟩ : Fin 200000) :=
    funext fun k => negBlock3 V c t p k _ rfl
  rw [h1, h2, h3]

/-- An index of the result array is in point t's block iff each coordinate is in the block's range. -/
theorem memBlock3_pos (t : Fin cfg3.N) (i : S200000x1.Idx) :
    i ∈ ((cfg3.win 4).blk t).view.set ↔ ∀ a : Fin 2, win3_4.index t a * S4000x1.size a ≤ (i a).val ∧ (i a).val < win3_4.index t a * S4000x1.size a + S4000x1.size a := by
  show i ∈ ((View.whole main_v72_0).slice (win3_4.rect t)).set ↔ _
  rw [View.set_slice_whole, Rect.mem_set_unit]
  exact Iff.rfl

/-- Every row belongs to the block of the point that is its quotient by 4000. -/
theorem cover3_pos (i : S200000x1.Idx) : ∃ t : Fin cfg3.N, (cfg3.win 4).flush t = true ∧ i ∈ ((cfg3.win 4).blk t).view.set := by
  have hi0 : (i 0).val < 200000 := (i 0).isLt
  have hi1 : (i 1).val < 1 := (i 1).isLt
  have hN : cfg3.N = 50 := N_3
  refine ⟨⟨(i 0).val / 4000, by rw [hN]; omega⟩, flush3_4 _, ?_⟩
  rw [memBlock3_pos]
  obtain ⟨e0, e1⟩ := idx3_4 ⟨(i 0).val / 4000, by rw [hN]; omega⟩
  intro a
  match a with
  | ⟨0, _⟩ =>
    show win3_4.index _ (0 : Fin 2) * 4000 ≤ (i 0).val ∧ (i 0).val < win3_4.index _ (0 : Fin 2) * 4000 + 4000
    rw [e0]; show (i 0).val / 4000 * 4000 ≤ _ ∧ _ < (i 0).val / 4000 * 4000 + 4000; omega
  | ⟨1, _⟩ =>
    show win3_4.index _ (1 : Fin 2) * 1 ≤ (i 1).val ∧ (i 1).val < win3_4.index _ (1 : Fin 2) * 1 + 1
    rw [e1]; omega

/-- An index of the result array is in point t's block iff each coordinate is in the block's range. -/
theorem memBlock3_neg (t : Fin cfg3.N) (i : S200000x1.Idx) :
    i ∈ ((cfg3.win 5).blk t).view.set ↔ ∀ a : Fin 2, win3_5.index t a * S4000x1.size a ≤ (i a).val ∧ (i a).val < win3_5.index t a * S4000x1.size a + S4000x1.size a := by
  show i ∈ ((View.whole main_v72_1).slice (win3_5.rect t)).set ↔ _
  rw [View.set_slice_whole, Rect.mem_set_unit]
  exact Iff.rfl

/-- Every row belongs to the block of the point that is its quotient by 4000. -/
theorem cover3_neg (i : S200000x1.Idx) : ∃ t : Fin cfg3.N, (cfg3.win 5).flush t = true ∧ i ∈ ((cfg3.win 5).blk t).view.set := by
  have hi0 : (i 0).val < 200000 := (i 0).isLt
  have hi1 : (i 1).val < 1 := (i 1).isLt
  have hN : cfg3.N = 50 := N_3
  refine ⟨⟨(i 0).val / 4000, by rw [hN]; omega⟩, flush3_5 _, ?_⟩
  rw [memBlock3_neg]
  obtain ⟨e0, e1⟩ := idx3_5 ⟨(i 0).val / 4000, by rw [hN]; omega⟩
  intro a
  match a with
  | ⟨0, _⟩ =>
    show win3_5.index _ (0 : Fin 2) * 4000 ≤ (i 0).val ∧ (i 0).val < win3_5.index _ (0 : Fin 2) * 4000 + 4000
    rw [e0]; show (i 0).val / 4000 * 4000 ≤ _ ∧ _ < (i 0).val / 4000 * 4000 + 4000; omega
  | ⟨1, _⟩ =>
    show win3_5.index _ (1 : Fin 2) * 1 ≤ (i 1).val ∧ (i 1).val < win3_5.index _ (1 : Fin 2) * 1 + 1
    rw [e1]; omega

/-- After the region the first result column holds the true-tail scores of all triples. -/
theorem final3_pos (c : Dev nD) : (dat3 V c).arrAt 4 cfg3.N = scores3_pos V c :=
  (dat3 V c).arrAt_eq_of_cover 4 (scores3_pos V c) (fun t _ => flushed3_pos V c t) (cover3_pos)

/-- After the region the second result column holds the corrupted-tail scores of all triples. -/
theorem final3_neg (c : Dev nD) : (dat3 V c).arrAt 5 cfg3.N = scores3_neg V c :=
  (dat3 V c).arrAt_eq_of_cover 5 (scores3_neg V c) (fun t _ => flushed3_neg V c t) (cover3_neg)

end Cert.KernelIdeal.Hand

end
-- ==== Proof.ChainD.lean ====
/-
  The two results, read off the kernel program's segments.

  The fourth host stretch gathers the head, tail and corrupted-tail rows of the node embedding and the relation rows;
  region 3 leaves the two columns of translation scores; the last stretch flattens each column to a vector.
-/
import proofs.«180076_j1056561954979_2_alg».proof.Proof.ChainC
import proofs.«180076_j1056561954979_2_alg».proof.Proof.Region3
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the fourth host stretch -/

theorem W7_heads : W7 m ρ c (Proc.devRef .tc main_v50) = nodeRows (embedding m c) (arg m c main_arg9) := by
  show StableHlo.after hostOps3 (W6 m ρ c) (Proc.devRef .tc main_v50) = _
  dsimp only [hostOps3]
  after_results_simp
  rw [W6_emb, W6_main_arg9]
  rfl

theorem W7_tails : W7 m ρ c (Proc.devRef .tc main_v57) = nodeRows (embedding m c) (arg m c main_arg10) := by
  show StableHlo.after hostOps3 (W6 m ρ c) (Proc.devRef .tc main_v57) = _
  dsimp only [hostOps3]
  after_results_simp
  rw [W6_emb, W6_main_arg10]
  rfl

theorem W7_negs : W7 m ρ c (Proc.devRef .tc main_v64) = nodeRows (embedding m c) (arg m c main_arg11) := by
  show StableHlo.after hostOps3 (W6 m ρ c) (Proc.devRef .tc main_v64) = _
  dsimp only [hostOps3]
  after_results_simp
  rw [W6_emb, W6_main_arg11]
  rfl

theorem W7_rels : W7 m ρ c (Proc.devRef .tc main_v71) = relRows (arg m c main_arg6) (arg m c main_arg12) := by
  show StableHlo.after hostOps3 (W6 m ρ c) (Proc.devRef .tc main_v71) = _
  dsimp only [hostOps3]
  after_results_simp
  rw [W6_main_arg6, W6_main_arg12]
  rfl

/-! ## After region 3 and the last host stretch -/

/-- The true-tail scores of all triples, as a function of the arguments. -/
def posScores : S200000x1.Idx → EReal :=
  Gcn.score (Ideal.ofBits .f32 0x3F800000#32) (nodeRows (embedding m c) (arg m c main_arg9))
    (relRows (arg m c main_arg6) (arg m c main_arg12)) (nodeRows (embedding m c) (arg m c main_arg10))

/-- The corrupted-tail scores of all triples, as a function of the arguments. -/
def negScores : S200000x1.Idx → EReal :=
  Gcn.score (Ideal.ofBits .f32 0x3F800000#32) (nodeRows (embedding m c) (arg m c main_arg9))
    (relRows (arg m c main_arg6) (arg m c main_arg12)) (nodeRows (embedding m c) (arg m c main_arg11))

theorem W8_pos : W8 m ρ c (Proc.devRef .tc main_v72_0) = posScores m c := by
  refine (W8_arr m ρ c 4).trans ?_
  rw [final3_pos (V7 m ρ) c]
  show Gcn.score _ (W7 m ρ c (Proc.devRef .tc main_v50)) (W7 m ρ c (Proc.devRef .tc main_v71)) (W7 m ρ c (Proc.devRef .tc main_v57)) = _
  rw [W7_heads, W7_rels, W7_tails]
  rfl

theorem W8_neg : W8 m ρ c (Proc.devRef .tc main_v72_1) = negScores m c := by
  refine (W8_arr m ρ c 5).trans ?_
  rw [final3_neg (V7 m ρ) c]
  show Gcn.score _ (W7 m ρ c (Proc.devRef .tc main_v50)) (W7 m ρ c (Proc.devRef .tc main_v71)) (W7 m ρ c (Proc.devRef .tc main_v64)) = _
  rw [W7_heads, W7_rels, W7_negs]
  rfl

/-- The first result: the true-tail scores, flattened. -/
theorem W9_pos : W9 m ρ c (Proc.devRef .tc main_v73) = flatten (posScores m c) := by
  have h : W9 m ρ c (Proc.devRef .tc main_v73) = flatten (W8 m ρ c (Proc.devRef .tc main_v72_0)) := by
    show StableHlo.after hostOps4 (W8 m ρ c) (Proc.devRef .tc main_v73) = _
    dsimp only [hostOps4]
    after_results
    rfl
  exact h.trans (congrArg flatten (W8_pos m ρ c))

/-- The second result: the corrupted-tail scores, flattened. -/
theorem W9_neg : W9 m ρ c (Proc.devRef .tc main_v74) = flatten (negScores m c) := by
  have h : W9 m ρ c (Proc.devRef .tc main_v74) = flatten (W8 m ρ c (Proc.devRef .tc main_v72_1)) := by
    show StableHlo.after hostOps4 (W8 m ρ c) (Proc.devRef .tc main_v74) = _
    dsimp only [hostOps4]
    after_results
    rfl
  exact h.trans (congrArg flatten (W8_neg m ρ c))

end Cert.KernelIdeal.Hand

end
-- ==== Proof.RefChains.lean ====
/-
  The reference's host-side steps are the shared host functions.

  The reference recomputes the two degree columns in each layer and spells every step as its own operation; unfolded,
  each of these stages is literally one of the shared functions — the degree column, the aggregate, the row gathers —
  applied to the same operands.  Nothing is computed: both sides are the same operations on the same arrays.
-/
import proofs.«180076_j1056561954979_2_alg».proof.Proof.Gen.ReferenceIdeal.Read
import proofs.«180076_j1056561954979_2_alg».proof.Proof.HostFns

noncomputable section

namespace Cert.RefStages

open Cert.ReferenceIdeal Cert.ReferenceIdeal.Read Idealize.ShloMosaic
open Cert.KernelIdeal.Hand (degRsqrtCol aggregate nodeRows relRows)

set_option maxHeartbeats 400000 in
/-- The out-degree column of the first layer. -/
theorem ref_dor (x7 : (⟨S800000, .i32⟩ : BufTy).Contents (Elt Ideal)) : val_main_v12 (F := Ideal) x7 = degRsqrtCol x7 := rfl

set_option maxHeartbeats 400000 in
/-- The in-degree column of the first layer. -/
theorem ref_dis1 (x8 : (⟨S800000, .i32⟩ : BufTy).Contents (Elt Ideal)) : val_main_v26 (F := Ideal) x8 = degRsqrtCol x8 := rfl

set_option maxHeartbeats 400000 in
/-- The in-degree column of the second layer. -/
theorem ref_dis2 (x8 : (⟨S800000, .i32⟩ : BufTy).Contents (Elt Ideal)) : val_main_v60 (F := Ideal) x8 = degRsqrtCol x8 := rfl

set_option maxHeartbeats 400000 in
/-- The first aggregate. -/
theorem ref_agg1 (x0 : (⟨S50000x128, .f32⟩ : BufTy).Contents (Elt Ideal)) (x7 x8 : (⟨S800000, .i32⟩ : BufTy).Contents (Elt Ideal)) :
    val_main_v24 (F := Ideal) x0 x7 x8 = aggregate x0 (degRsqrtCol x7) x7 x8 := rfl

set_option maxHeartbeats 400000 in
/-- The second aggregate, of the first layer's output. -/
theorem ref_agg2 (x0 : (⟨S50000x128, .f32⟩ : BufTy).Contents (Elt Ideal)) (x1 : (⟨S128x128, .f32⟩ : BufTy).Contents (Elt Ideal)) (x2 : (⟨S128, .f32⟩ : BufTy).Contents (Elt Ideal)) (x7 x8 : (⟨S800000, .i32⟩ : BufTy).Contents (Elt Ideal)) :
    val_main_v58 (F := Ideal) x0 x1 x2 x7 x8 = aggregate (val_main_v33 (F := Ideal) x0 x1 x2 x7 x8) (degRsqrtCol x7) x7 x8 := rfl

set_option maxHeartbeats 400000 in
/-- The gathered head rows. -/
theorem ref_heads (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S256x32, .f32⟩ : BufTy).Contents (Elt Ideal)) (x7 x8 : (⟨S800000, .i32⟩ : BufTy).Contents (Elt Ideal)) (x9 : (⟨S200000, .i32⟩ : BufTy).Contents (Elt Ideal)) :
    val_main_v99 (F := Ideal) x0 x1 x2 x3 x4 x5 x7 x8 x9 = nodeRows (val_main_v77 (F := Ideal) x0 x1 x2 x3 x4 x5 x7 x8) x9 := rfl

set_option maxHeartbeats 400000 in
/-- The gathered tail rows. -/
theorem ref_tails (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S256x32, .f32⟩ : BufTy).Contents (Elt Ideal)) (x7 x8 : (⟨S800000, .i32⟩ : BufTy).Contents (Elt Ideal)) (x10 : (⟨S200000, .i32⟩ : BufTy).Contents (Elt Ideal)) :
    val_main_v106 (F := Ideal) x0 x1 x2 x3 x4 x5 x7 x8 x10 = nodeRows (val_main_v77 (F := Ideal) x0 x1 x2 x3 x4 x5 x7 x8) x10 := rfl

set_option maxHeartbeats 400000 in
/-- The gathered corrupted-tail rows. -/
theorem ref_negs (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S256x32, .f32⟩ : BufTy).Contents (Elt Ideal)) (x7 x8 : (⟨S800000, .i32⟩ : BufTy).Contents (Elt Ideal)) (x11 : (⟨S200000, .i32⟩ : BufTy).Contents (Elt Ideal)) :
    val_main_v118 (F := Ideal) x0 x1 x2 x3 x4 x5 x7 x8 x11 = nodeRows (val_main_v77 (F := Ideal) x0 x1 x2 x3 x4 x5 x7 x8) x11 := rfl

set_option maxHeartbeats 400000 in
/-- The gathered relation rows. -/
theorem ref_rels (x6 : (⟨S1000x32, .f32⟩ : BufTy).Contents (Elt Ideal)) (x12 : (⟨S200000, .i32⟩ : BufTy).Contents (Elt Ideal)) :
    val_main_v84 (F := Ideal) x6 x12 = relRows x6 x12 := rfl

end Cert.RefStages

end
-- ==== Proof.RefLayer.lean ====
/-
  The dense half of each graph-convolution layer of the reference, read at an index.

  At row p and column q the reference computes  tanh( (∑ k, (agg (p, k) * d (p, 0)) * W (k, q)) + b q ):  the
  aggregate is multiplied elementwise by the in-degree column broadcast along the rows, the product is contracted
  with the weight over k, the bias row is broadcast down the columns and added, and tanh is applied.  This is the
  row function denseRow on row p, so the whole stage is dense of the aggregate, the degree column, W and b.
-/
import proofs.«180076_j1056561954979_2_alg».proof.Proof.Gen.ReferenceIdeal.Read
import proofs.«180076_j1056561954979_2_alg».proof.Proof.RowSpec

noncomputable section

open scoped BigOperators

namespace Cert.RefStages

open Cert.ReferenceIdeal Cert.ReferenceIdeal.Read Idealize.ShloMosaic Idealize.ShloMosaic.ValueIdx Cert.Gcn

set_option maxHeartbeats 400000 in
/-- Layer 1: the stage after tanh is the dense half applied to the aggregate and the in-degree column. -/
theorem ref_layer1 (x0 : (⟨S50000x128, .f32⟩ : BufTy).Contents (Elt Ideal)) (x1 : (⟨S128x128, .f32⟩ : BufTy).Contents (Elt Ideal))
    (x2 : (⟨S128, .f32⟩ : BufTy).Contents (Elt Ideal)) (x7 x8 : (⟨S800000, .i32⟩ : BufTy).Contents (Elt Ideal)) :
    val_main_v33 (F := Ideal) x0 x1 x2 x7 x8
      = dense (val_main_v24 (F := Ideal) x0 x7 x8) (val_main_v26 (F := Ideal) x8) (mat x1) (vec x2) := by
  funext i
  obtain ⟨p, q, rfl⟩ : ∃ (p : Fin 50000) (q : Fin 128), i = ix2 p q := ⟨i 0, i 1, eq_ix2 i⟩
  rw [dense_apply, val_main_v33_apply, val_main_v32_apply, val_main_v29_apply, val_main_v31_apply, val_main_v30_apply]
  have e30 : idx_main_v30 (idx_main_v31 (ix2 p q)) = ix1 q :=
    funext fun a => Fin.ext (by match a with | ⟨0, _⟩ => rfl)
  have el : ∀ k : Fin 128, lidx_main_v29 (ix2 p q) k = ix2 p k := fun k =>
    funext fun a => Fin.ext (by match a with | ⟨0, _⟩ => rfl | ⟨1, _⟩ => rfl)
  have er : ∀ k : Fin 128, ridx_main_v29 (ix2 p q) k = ix2 k q := fun k =>
    funext fun a => Fin.ext (by match a with | ⟨0, _⟩ => rfl | ⟨1, _⟩ => rfl)
  have e27 : ∀ k : Fin 128, idx_main_v27 (ix2 p k) = ix2 p (0 : Fin 1) := fun k =>
    funext fun a => Fin.ext (by match a with | ⟨0, _⟩ => rfl | ⟨1, _⟩ => rfl)
  have hsum : (∑ k : Fin 128, val_main_v28 (F := Ideal) x0 x7 x8 (lidx_main_v29 (ix2 p q) k) * x1 (ridx_main_v29 (ix2 p q) k))
      = ∑ k : Fin 128, (val_main_v24 (F := Ideal) x0 x7 x8 (ix2 p k) * val_main_v26 (F := Ideal) x8 (ix2 p (0 : Fin 1))) * x1 (ix2 k q) :=
    Finset.sum_congr rfl fun k _ => by
      rw [el, er, val_main_v28_apply, val_main_v27_apply, e27, Ideal.mulf_def]
  rw [e30, hsum, Ideal.hostUnary_tanh_def, Ideal.addf_def]
  rfl

set_option maxHeartbeats 400000 in
/-- Layer 2: the same with the second weight and bias, on the layer-2 aggregate and in-degree column. -/
theorem ref_layer2 (x0 : (⟨S50000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x7 x8 : (⟨S800000, .i32⟩ : BufTy).Contents (Elt Ideal)) :
    val_main_v67 (F := Ideal) x0 x1 x2 x3 x4 x7 x8
      = dense (val_main_v58 (F := Ideal) x0 x1 x2 x7 x8) (val_main_v60 (F := Ideal) x8) (mat x3) (vec x4) := by
  funext i
  obtain ⟨p, q, rfl⟩ : ∃ (p : Fin 50000) (q : Fin 128), i = ix2 p q := ⟨i 0, i 1, eq_ix2 i⟩
  rw [dense_apply, val_main_v67_apply, val_main_v66_apply, val_main_v63_apply, val_main_v65_apply, val_main_v64_apply]
  have e64 : idx_main_v64 (idx_main_v65 (ix2 p q)) = ix1 q :=
    funext fun a => Fin.ext (by match a with | ⟨0, _⟩ => rfl)
  have el : ∀ k : Fin 128, lidx_main_v63 (ix2 p q) k = ix2 p k := fun k =>
    funext fun a => Fin.ext (by match a with | ⟨0, _⟩ => rfl | ⟨1, _⟩ => rfl)
  have er : ∀ k : Fin 128, ridx_main_v63 (ix2 p q) k = ix2 k q := fun k =>
    funext fun a => Fin.ext (by match a with | ⟨0, _⟩ => rfl | ⟨1, _⟩ => rfl)
  have e61 : ∀ k : Fin 128, idx_main_v61 (ix2 p k) = ix2 p (0 : Fin 1) := fun k =>
    funext fun a => Fin.ext (by match a with | ⟨0, _⟩ => rfl | ⟨1, _⟩ => rfl)
  have hsum : (∑ k : Fin 128, val_main_v62 (F := Ideal) x0 x1 x2 x7 x8 (lidx_main_v63 (ix2 p q) k) * x3 (ridx_main_v63 (ix2 p q) k))
      = ∑ k : Fin 128, (val_main_v58 (F := Ideal) x0 x1 x2 x7 x8 (ix2 p k) * val_main_v60 (F := Ideal) x8 (ix2 p (0 : Fin 1))) * x3 (ix2 k q) :=
    Finset.sum_congr rfl fun k _ => by
      rw [el, er, val_main_v62_apply, val_main_v61_apply, e61, Ideal.mulf_def]
  rw [e64, hsum, Ideal.hostUnary_tanh_def, Ideal.addf_def]
  rfl

end Cert.RefStages

end
-- ==== Proof.RefProj.lean ====
/-
  The projection stage of the reference, read at an index.

  The reference joins the layer-2 features and the input features side by side into a 50000×256 array, contracts it
  with the 256×32 projection weight, and divides each row by the larger of its Euclidean norm and a floor.  A sum
  over the 256 joined columns is the sum over the first 128 plus the sum over the last 128 (addition on the extended
  reals is associative and commutative; nothing else is used), so the product at (p, q) is
      (∑ k, h (p, k) * W (k, q)) + (∑ k, f (p, k) * W (128 + k, q)),
  the row function projRaw with the upper and the lower half of the weight.  The norm is the square root of the row
  sum of squares started from zero, kept as a column and broadcast back along the row.
-/
import proofs.«180076_j1056561954979_2_alg».proof.Proof.Gen.ReferenceIdeal.Read
import proofs.«180076_j1056561954979_2_alg».proof.Proof.RowSpec

noncomputable section

open scoped BigOperators

namespace Cert.RefStages

open Cert.ReferenceIdeal Cert.ReferenceIdeal.Gen Cert.ReferenceIdeal.Read Idealize.ShloMosaic Idealize.ShloMosaic.ValueIdx Cert.Gcn

/-- The joined array at a column of the first half is the first piece. -/
theorem ref_concat_left (x0 : (⟨S50000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x7 x8 : (⟨S800000, .i32⟩ : BufTy).Contents (Elt Ideal))
    (p : Fin 50000) (k : Fin 128) :
    val_main_v68 (F := Ideal) x0 x1 x2 x3 x4 x7 x8 (ix2 p (Fin.castAdd 128 k))
      = val_main_v67 (F := Ideal) x0 x1 x2 x3 x4 x7 x8 (ix2 p k) := by
  unfold val_main_v68
  generalize val_main_v67 (F := Ideal) x0 x1 x2 x3 x4 x7 x8 = y
  refine concatenate_pair_apply_left (1 : Fin S50000x256.rank) y x0 concatenates_S50000x128_S50000x128_S50000x256_d1
    (ix2 p (Fin.castAdd 128 k)) rfl (ix2 p k) fun b => ?_
  match b with
  | ⟨0, _⟩ => rfl
  | ⟨1, _⟩ => rfl

/-- The joined array at a column of the second half is the second piece, 128 columns to the left. -/
theorem ref_concat_right (x0 : (⟨S50000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x7 x8 : (⟨S800000, .i32⟩ : BufTy).Contents (Elt Ideal))
    (p : Fin 50000) (k : Fin 128) :
    val_main_v68 (F := Ideal) x0 x1 x2 x3 x4 x7 x8 (ix2 p (Fin.natAdd 128 k)) = x0 (ix2 p k) := by
  unfold val_main_v68
  generalize val_main_v67 (F := Ideal) x0 x1 x2 x3 x4 x7 x8 = y
  refine concatenate_pair_apply_right (1 : Fin S50000x256.rank) y x0 concatenates_S50000x128_S50000x128_S50000x256_d1
    (ix2 p (Fin.natAdd 128 k)) rfl rfl (ix2 p k) (fun b hb => ?_) ?_
  · match b with
    | ⟨0, _⟩ => rfl
    | ⟨1, _⟩ => exact absurd rfl hb
  · show k.val + 128 = 128 + k.val
    exact Nat.add_comm _ _

/-- A sum over 256 positions is the sum over the first 128 plus the sum over the last 128. -/
theorem sum_256_split (g : Fin 256 → EReal) :
    ∑ k : Fin 256, g k = (∑ k : Fin 128, g (Fin.castAdd 128 k)) + ∑ k : Fin 128, g (Fin.natAdd 128 k) :=
  Fin.sum_univ_add (a := 128) (b := 128) g

set_option maxHeartbeats 200000 in
/-- The product of the joined array with the projection weight at (p, q): the two half sums. -/
theorem ref_v69_apply (x0 : (⟨S50000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x5 : (⟨S256x32, .f32⟩ : BufTy).Contents (Elt Ideal))
    (x7 x8 : (⟨S800000, .i32⟩ : BufTy).Contents (Elt Ideal))
    (p : Fin 50000) (q : Fin 32) :
    val_main_v69 (F := Ideal) x0 x1 x2 x3 x4 x5 x7 x8 (ix2 p q)
      = projRaw (rowOf (val_main_v67 (F := Ideal) x0 x1 x2 x3 x4 x7 x8) p) (rowOf x0 p)
          (fun k q => x5 (ix2 (Fin.castAdd 128 k) q)) (fun k q => x5 (ix2 (Fin.natAdd 128 k) q)) q := by
  have el : ∀ k : Fin 256, lidx_main_v69 (ix2 p q) k = ix2 p k := fun k =>
    funext fun a => Fin.ext (by match a with | ⟨0, _⟩ => rfl | ⟨1, _⟩ => rfl)
  have er : ∀ k : Fin 256, ridx_main_v69 (ix2 p q) k = ix2 k q := fun k =>
    funext fun a => Fin.ext (by match a with | ⟨0, _⟩ => rfl | ⟨1, _⟩ => rfl)
  have h1 : ∀ k : Fin 128,
      val_main_v68 (F := Ideal) x0 x1 x2 x3 x4 x7 x8 (lidx_main_v69 (ix2 p q) (Fin.castAdd 128 k)) * x5 (ridx_main_v69 (ix2 p q) (Fin.castAdd 128 k))
        = val_main_v67 (F := Ideal) x0 x1 x2 x3 x4 x7 x8 (ix2 p k) * x5 (ix2 (Fin.castAdd 128 k) q) := fun k => by
    rw [el, er, ref_concat_left]
  have h2 : ∀ k : Fin 128,
      val_main_v68 (F := Ideal) x0 x1 x2 x3 x4 x7 x8 (lidx_main_v69 (ix2 p q) (Fin.natAdd 128 k)) * x5 (ridx_main_v69 (ix2 p q) (Fin.natAdd 128 k))
        = x0 (ix2 p k) * x5 (ix2 (Fin.natAdd 128 k) q) := fun k => by
    rw [el, er, ref_concat_right]
  rw [val_main_v69_apply, sum_256_split, Finset.sum_congr rfl fun k _ => h1 k, Finset.sum_congr rfl fun k _ => h2 k]
  rfl

set_option maxHeartbeats 200000 in
/-- The projection stage is the normalised projection of the layer-2 features and the input features. -/
theorem ref_proj (x0 : (⟨S50000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x5 : (⟨S256x32, .f32⟩ : BufTy).Contents (Elt Ideal))
    (x7 x8 : (⟨S800000, .i32⟩ : BufTy).Contents (Elt Ideal)) :
    val_main_v77 (F := Ideal) x0 x1 x2 x3 x4 x5 x7 x8
      = proj (Ideal.ofBits .f32 0x2B8CBCCC#32) (val_main_v67 (F := Ideal) x0 x1 x2 x3 x4 x7 x8) x0
          (fun k q => x5 (ix2 (Fin.castAdd 128 k) q)) (fun k q => x5 (ix2 (Fin.natAdd 128 k) q)) := by
  funext i
  obtain ⟨p, q, rfl⟩ : ∃ (p : Fin 50000) (q : Fin 32), i = ix2 p q := ⟨i 0, i 1, eq_ix2 i⟩
  rw [proj_apply, val_main_v77_apply, val_main_v76_apply, val_main_v75_apply, val_main_v73_apply, val_main_v72_apply,
    val_main_v71_apply, val_main_v74_apply, val_main_cst_15_apply, val_main_cst_14_apply]
  have e72 : idx_main_v72 (idx_main_v76 (ix2 p q)) = ix1 p :=
    funext fun a => Fin.ext (by match a with | ⟨0, _⟩ => rfl)
  have e71 : ∀ k : Fin 32, idx_main_v71 (ix1 p) k = ix2 p k := fun k =>
    funext fun a => Fin.ext (by match a with | ⟨0, _⟩ => rfl | ⟨1, _⟩ => rfl)
  have hsq : (∑ k : Fin 32, val_main_v70 (F := Ideal) x0 x1 x2 x3 x4 x5 x7 x8 (idx_main_v71 (ix1 p) k))
      = ∑ k : Fin 32, val_main_v69 (F := Ideal) x0 x1 x2 x3 x4 x5 x7 x8 (ix2 p k) * val_main_v69 (F := Ideal) x0 x1 x2 x3 x4 x5 x7 x8 (ix2 p k) :=
    Finset.sum_congr rfl fun k _ => by rw [e71, val_main_v70_apply, Ideal.mulf_def]
  rw [e72, hsq, Ideal.hostDivf_def, Ideal.maximumf_def, Ideal.hostUnary_sqrt_def, Ideal.ofBits_def, Ideal.ofBits_def,
    Ideal.ofBits_zero_f32, zero_add]
  simp only [ref_v69_apply]
  rfl

end Cert.RefStages

end
-- ==== Proof.RefScore.lean ====
/-
  The two score stages of the reference, read at an index.

  For triple p the reference takes the gathered head row h, relation row r and tail row t (each of 32 entries),
  divides r by the larger of its Euclidean norm and one, and returns the Euclidean norm of h + r' − t:  the square
  root of the row sum, started from zero, of the squares of the entries.  The relation's norm is computed as a
  column (row sum of squares, square root, maximum with the constant one) and broadcast back along the row.  The
  positive and the negative score differ only in the tail rows.
-/
import proofs.«180076_j1056561954979_2_alg».proof.Proof.Gen.ReferenceIdeal.Read
import proofs.«180076_j1056561954979_2_alg».proof.Proof.RowSpec

noncomputable section

open scoped BigOperators

namespace Cert.RefStages

open Cert.ReferenceIdeal Cert.ReferenceIdeal.Read Idealize.ShloMosaic Idealize.ShloMosaic.ValueIdx Cert.Gcn

set_option maxHeartbeats 400000 in
/-- The scaled relation row: entry (p, k) is the gathered entry divided by the larger of the row's norm and one. -/
theorem ref_rel (x6 : (⟨S1000x32, .f32⟩ : BufTy).Contents (Elt Ideal)) (x12 : (⟨S200000, .i32⟩ : BufTy).Contents (Elt Ideal)) (p : Fin 200000) (k : Fin 32) :
    val_main_v92 (F := Ideal) x6 x12 (ix2 p k)
      = relRow (Ideal.ofBits .f32 0x3F800000#32) (rowOf (val_main_v84 (F := Ideal) x6 x12) p) k := by
  rw [val_main_v92_apply, val_main_v91_apply, val_main_v90_apply, val_main_v88_apply, val_main_v87_apply,
    val_main_v86_apply, val_main_v89_apply, val_main_cst_19_apply, val_main_cst_18_apply]
  have e87 : idx_main_v87 (idx_main_v91 (ix2 p k)) = ix1 p :=
    funext fun a => Fin.ext (by match a with | ⟨0, _⟩ => rfl)
  have e86 : ∀ j : Fin 32, idx_main_v86 (ix1 p) j = ix2 p j := fun j =>
    funext fun a => Fin.ext (by match a with | ⟨0, _⟩ => rfl | ⟨1, _⟩ => rfl)
  rw [e87]
  simp only [e86, val_main_v85_apply, Ideal.hostDivf_def, Ideal.maximumf_def, Ideal.hostUnary_sqrt_def,
    Ideal.mulf_def, Ideal.ofBits_def, Ideal.ofBits_zero_f32, zero_add]
  rfl

set_option maxHeartbeats 400000 in
/-- The positive score is the translation score of the gathered head, relation and tail rows. -/
theorem ref_pos (x0 : (⟨S50000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x5 : (⟨S256x32, .f32⟩ : BufTy).Contents (Elt Ideal))
    (x6 : (⟨S1000x32, .f32⟩ : BufTy).Contents (Elt Ideal)) (x7 x8 : (⟨S800000, .i32⟩ : BufTy).Contents (Elt Ideal))
    (x9 x10 x12 : (⟨S200000, .i32⟩ : BufTy).Contents (Elt Ideal)) :
    val_main_v111 (F := Ideal) x0 x1 x2 x3 x4 x5 x6 x7 x8 x9 x10 x12
      = scoreFlat (Ideal.ofBits .f32 0x3F800000#32) (val_main_v99 (F := Ideal) x0 x1 x2 x3 x4 x5 x7 x8 x9)
          (val_main_v84 (F := Ideal) x6 x12) (val_main_v106 (F := Ideal) x0 x1 x2 x3 x4 x5 x7 x8 x10) := by
  funext i
  obtain ⟨p, rfl⟩ : ∃ p : Fin 200000, i = ix1 p := ⟨i 0, eq_ix1 i⟩
  rw [scoreFlat_apply, val_main_v111_apply, val_main_v110_apply, val_main_cst_24_apply]
  have e110 : ∀ k : Fin 32, idx_main_v110 (ix1 p) k = ix2 p k := fun k =>
    funext fun a => Fin.ext (by match a with | ⟨0, _⟩ => rfl | ⟨1, _⟩ => rfl)
  simp only [e110, val_main_v109_apply, val_main_v108_apply, val_main_v107_apply, ref_rel, Ideal.hostUnary_sqrt_def,
    Ideal.mulf_def, Ideal.subf_def, Ideal.addf_def, Ideal.ofBits_def, Ideal.ofBits_zero_f32, zero_add]
  rfl

set_option maxHeartbeats 400000 in
/-- The negative score: the same with the corrupted tail rows. -/
theorem ref_neg (x0 : (⟨S50000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x5 : (⟨S256x32, .f32⟩ : BufTy).Contents (Elt Ideal))
    (x6 : (⟨S1000x32, .f32⟩ : BufTy).Contents (Elt Ideal)) (x7 x8 : (⟨S800000, .i32⟩ : BufTy).Contents (Elt Ideal))
    (x9 x11 x12 : (⟨S200000, .i32⟩ : BufTy).Contents (Elt Ideal)) :
    val_main_v122 (F := Ideal) x0 x1 x2 x3 x4 x5 x6 x7 x8 x9 x11 x12
      = scoreFlat (Ideal.ofBits .f32 0x3F800000#32) (val_main_v99 (F := Ideal) x0 x1 x2 x3 x4 x5 x7 x8 x9)
          (val_main_v84 (F := Ideal) x6 x12) (val_main_v118 (F := Ideal) x0 x1 x2 x3 x4 x5 x7 x8 x11) := by
  funext i
  obtain ⟨p, rfl⟩ : ∃ p : Fin 200000, i = ix1 p := ⟨i 0, eq_ix1 i⟩
  rw [scoreFlat_apply, val_main_v122_apply, val_main_v121_apply, val_main_cst_27_apply]
  have e121 : ∀ k : Fin 32, idx_main_v121 (ix1 p) k = ix2 p k := fun k =>
    funext fun a => Fin.ext (by match a with | ⟨0, _⟩ => rfl | ⟨1, _⟩ => rfl)
  simp only [e121, val_main_v120_apply, val_main_v119_apply, val_main_v107_apply, ref_rel, Ideal.hostUnary_sqrt_def,
    Ideal.mulf_def, Ideal.subf_def, Ideal.addf_def, Ideal.ofBits_def, Ideal.ofBits_zero_f32, zero_add]
  rfl

end Cert.RefStages

end
-- ==== Proof.Bridge.lean ====
/-
  The reference's two results are the same nested function of the arguments as the kernel program's.

  Stage by stage the reference's values have been identified with the row-wise stage functions (dense layer,
  normalised projection, translation score) and with the shared host functions (degree columns, aggregates, row
  gathers).  Substituting those identifications into one another gives each reference result as a single nested
  term.  Two small facts put it in the kernel program's spelling: the head and tail of the projection weight, cut out
  as slices, are its rows k and 128 + k; and a column of scores flattened to a vector has at i the score of triple i.
-/
import proofs.«180076_j1056561954979_2_alg».proof.Proof.RefChains
import proofs.«180076_j1056561954979_2_alg».proof.Proof.RefLayer
import proofs.«180076_j1056561954979_2_alg».proof.Proof.RefProj
import proofs.«180076_j1056561954979_2_alg».proof.Proof.RefScore
import Idealize.ShloMosaic.Lib.ValueLayout
import Idealize.ShloMosaic.Lib.Pipeline.Value

noncomputable section

namespace Cert.RefStages

open Cert.ReferenceIdeal Cert.ReferenceIdeal.Read Idealize.ShloMosaic Idealize.ShloMosaic.ValueIdx
open Cert.KernelIdeal.Hand (degRsqrtCol aggregate nodeRows relRows headW tailW flatten)

/-- Row k of the weight's head is row k of the weight. -/
theorem headW_apply (w : (⟨S256x32, .f32⟩ : BufTy).Contents (Elt Ideal)) (k : Fin 128) (q : Fin 32) :
    headW w (ix2 k q) = w (ix2 (Fin.castAdd 128 k) q) :=
  slice2_axis0_apply 0 w _ k q (Fin.castAdd 128 k) (by simp)

/-- Row k of the weight's tail is row 128 + k of the weight. -/
theorem tailW_apply (w : (⟨S256x32, .f32⟩ : BufTy).Contents (Elt Ideal)) (k : Fin 128) (q : Fin 32) :
    tailW w (ix2 k q) = w (ix2 (Fin.natAdd 128 k) q) :=
  slice2_axis0_apply 128 w _ k q (Fin.natAdd 128 k) rfl

/-- A column of scores flattened to a vector is the vector of scores. -/
theorem flatten_score (one : EReal) (h r t : (⟨S200000x32, .f32⟩ : BufTy).Contents (Elt Ideal)) :
    flatten (F := Ideal) (Gcn.score one h r t) = Gcn.scoreFlat one h r t := by
  funext i
  obtain ⟨p, rfl⟩ : ∃ p : Fin 200000, i = ix1 p := ⟨i 0, eq_ix1 i⟩
  refine (shapeCast_apply _ _ (ix1 p) (ix2 p (0 : Fin 1)) ?_).trans rfl
  rw [Shape.rowMajor_val_two, Shape.rowMajor_val_one]
  show p.val * 1 + 0 = p.val
  omega

/-- The normalised projection of every node, as the kernel program nests it. -/
def nodeEmbedding (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S256x32, .f32⟩ : BufTy).Contents (Elt Ideal)) (x7 x8 : (⟨S800000, .i32⟩ : BufTy).Contents (Elt Ideal)) : (⟨S50000x32, .f32⟩ : BufTy).Contents (Elt Ideal) :=
  Gcn.proj (Ideal.ofBits .f32 0x2B8CBCCC#32)
    (Gcn.dense
      (aggregate
        (Gcn.dense (aggregate x0 (degRsqrtCol x7) x7 x8) (degRsqrtCol x8) (Gcn.mat x1) (Gcn.vec x2))
        (degRsqrtCol x7) x7 x8)
      (degRsqrtCol x8) (Gcn.mat x3) (Gcn.vec x4))
    x0 (Gcn.mat (headW x5)) (Gcn.mat (tailW x5))

/-- The reference's normalised projection is that nested term. -/
theorem ref_embedding (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S256x32, .f32⟩ : BufTy).Contents (Elt Ideal)) (x7 x8 : (⟨S800000, .i32⟩ : BufTy).Contents (Elt Ideal)) :
    val_main_v77 (F := Ideal) x0 x1 x2 x3 x4 x5 x7 x8 = nodeEmbedding x0 x1 x2 x3 x4 x5 x7 x8 := by
  rw [ref_proj, ref_layer2, ref_agg2, ref_dis2, ref_layer1, ref_agg1, ref_dis1]
  unfold nodeEmbedding
  have hh : (fun k q => x5 (ix2 (Fin.castAdd 128 k) q)) = Gcn.mat (headW x5) :=
    funext fun k => funext fun q => (headW_apply x5 k q).symm
  have ht : (fun k q => x5 (ix2 (Fin.natAdd 128 k) q)) = Gcn.mat (tailW x5) :=
    funext fun k => funext fun q => (tailW_apply x5 k q).symm
  rw [hh, ht]

/-- The reference's first result. -/
theorem ref_first (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S256x32, .f32⟩ : BufTy).Contents (Elt Ideal)) (x6 : (⟨S1000x32, .f32⟩ : BufTy).Contents (Elt Ideal)) (x7 x8 : (⟨S800000, .i32⟩ : BufTy).Contents (Elt Ideal)) (x9 x10 x12 : (⟨S200000, .i32⟩ : BufTy).Contents (Elt Ideal)) :
    val_main_v111 (F := Ideal) x0 x1 x2 x3 x4 x5 x6 x7 x8 x9 x10 x12
      = flatten
        (Gcn.score (Ideal.ofBits .f32 0x3F800000#32)
          (nodeRows (nodeEmbedding x0 x1 x2 x3 x4 x5 x7 x8) x9)
          (relRows x6 x12)
          (nodeRows (nodeEmbedding x0 x1 x2 x3 x4 x5 x7 x8) x10)) := by
  rw [ref_pos, ref_heads, ref_tails, ref_rels, ref_embedding, flatten_score]

/-- The reference's second result. -/
theorem ref_second (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S256x32, .f32⟩ : BufTy).Contents (Elt Ideal)) (x6 : (⟨S1000x32, .f32⟩ : BufTy).Contents (Elt Ideal)) (x7 x8 : (⟨S800000, .i32⟩ : BufTy).Contents (Elt Ideal)) (x9 x11 x12 : (⟨S200000, .i32⟩ : BufTy).Contents (Elt Ideal)) :
    val_main_v122 (F := Ideal) x0 x1 x2 x3 x4 x5 x6 x7 x8 x9 x11 x12
      = flatten
        (Gcn.score (Ideal.ofBits .f32 0x3F800000#32)
          (nodeRows (nodeEmbedding x0 x1 x2 x3 x4 x5 x7 x8) x9)
          (relRows x6 x12)
          (nodeRows (nodeEmbedding x0 x1 x2 x3 x4 x5 x7 x8) x11)) := by
  rw [ref_neg, ref_heads, ref_negs, ref_rels, ref_embedding, flatten_score]

end Cert.RefStages

end
-- ==== Proof.lean ====
/-
  A two-layer graph-convolution network with a translation scorer: the kernel program against its jnp reference.

  The network aggregates node features along 800000 edges (a segment sum of degree-scaled rows), applies a dense
  layer tanh((agg · d_in) W + b) twice, projects [layer output ; input features] through a 256×32 weight and divides
  each row by the larger of its norm and 1e-12, then scores 200000 (head, relation, tail) triples by the norm of
  h + r/max(‖r‖, 1) − t, once against the true tails and once against corrupted ones.

  The kernel program keeps the aggregation and the row gathers on the host and runs the three dense stages as
  pallas regions over row blocks (5000 rows for the layers and the projection, 4000 triples for the scores); the
  reference is host operations throughout.  On the extended reals the two agree exactly:
    * the host steps are the same operations on both sides;
    * a block of rows of a dense stage is the stage's row function of those rows, so the blocks written back tile
      one whole-array function, whose value at a row is also what the reference's operations give there
      (a product into a zero accumulator and the host's general dot are the same sum over k);
    * the kernel's x Wa + f Wb with Wa, Wb the two halves of the weight is the reference's [x ; f] W: one sum over
      256 positions split at 128 — only that addition is a commutative monoid is used, so no finiteness is needed;
    * a norm kept as a column and broadcast along its row reads the same as the reference's.
  The precondition (finite inputs) is therefore never opened.  The ideal pass rewrote nothing, so `preserves` is
  trivial.
-/
import proofs.«180076_j1056561954979_2_alg».proof.Defs
import proofs.«180076_j1056561954979_2_alg».proof.Proof.Gen.Kernel
import proofs.«180076_j1056561954979_2_alg».proof.Proof.Gen.Kernel.Skeleton
import proofs.«180076_j1056561954979_2_alg».proof.Proof.Gen.Kernel.Launch
import proofs.«180076_j1056561954979_2_alg».proof.Proof.Gen.Kernel.Points
import proofs.«180076_j1056561954979_2_alg».proof.Proof.Gen.Kernel.Frame
import proofs.«180076_j1056561954979_2_alg».proof.Proof.Gen.KernelIdeal
import proofs.«180076_j1056561954979_2_alg».proof.Proof.Gen.KernelIdeal.Skeleton
import proofs.«180076_j1056561954979_2_alg».proof.Proof.Gen.KernelIdeal.Launch
import proofs.«180076_j1056561954979_2_alg».proof.Proof.Gen.KernelIdeal.Points
import proofs.«180076_j1056561954979_2_alg».proof.Proof.Gen.KernelIdeal.Frame
import proofs.«180076_j1056561954979_2_alg».proof.Proof.Gen.ReferenceIdeal
import proofs.«180076_j1056561954979_2_alg».proof.Proof.Gen.Pre_finite_inputs
import proofs.«180076_j1056561954979_2_alg».proof.Proof.Gen.ReferenceIdeal.Run
import proofs.«180076_j1056561954979_2_alg».proof.Proof.Gen.ReferenceIdeal.Read
import proofs.«180076_j1056561954979_2_alg».proof.Proof.KernelRun
import proofs.«180076_j1056561954979_2_alg».proof.Proof.ChainD
import proofs.«180076_j1056561954979_2_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The idealized reference runs and leaves its arguments unchanged: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories agreeing on the arguments both programs end with the same two score vectors: the kernel
    program's segments fold to the nested stage functions of the arguments, and the reference's operations are that
    same nested term. -/
theorem algebraic : Cert.algebraic_KernelIdeal_ReferenceIdeal := by
  intro m ρ m' ρ' _ hagree
  refine ⟨fun c => Cert.KernelIdeal.Hand.flatten (Cert.KernelIdeal.Hand.posScores m c),
    fun c => Cert.KernelIdeal.Hand.flatten (Cert.KernelIdeal.Hand.negScores m c), ?_, ?_⟩
  · refine (θ_run Cert.KernelIdeal.defs _ _).mono (fun r h c => ?_) (Cert.KernelIdeal.Hand.run_results (F := Ideal) m ρ)
    obtain ⟨h1, h2, hrest⟩ := h c
    exact ⟨h1.trans (Cert.KernelIdeal.Hand.W9_pos m ρ c), h2.trans (Cert.KernelIdeal.Hand.W9_neg m ρ c), hrest⟩
  · refine (θ_run Cert.ReferenceIdeal.defs _ _).mono (fun r h c => ?_) (Cert.ReferenceIdeal.Value.run (F := Ideal) m' ρ')
    obtain ⟨h1, h2, hrest⟩ := h c
    obtain ⟨a0, a1, a2, a3, a4, a5, a6, a7, a8, a9, a10, a11, a12⟩ := hagree c
    refine ⟨h1.trans ?_, h2.trans ?_, hrest⟩
    · rw [Cert.ReferenceIdeal.Read.val_main_v111_eq, a0, a1, a2, a3, a4, a5, a6, a7, a8, a9, a10, a12]
      exact Cert.RefStages.ref_first _ _ _ _ _ _ _ _ _ _ _ _
    · rw [Cert.ReferenceIdeal.Read.val_main_v122_eq, a0, a1, a2, a3, a4, a5, a6, a7, a8, a9, a11, a12]
      exact Cert.RefStages.ref_second _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
